-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S2x2 : Shape := ⟨2, ![2, 2]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_

variable [Facts]

def fn_part1 {F : FTy → Type} [FloatOps F] (main_arg5 : FVec F S2 .f32) (main_arg6 : FVec F S2x2 .f32) (main_arg7 : FVec F S2 .f32) (main_v13 : IVec S_ 1) (main_v16 : IVec S4x2 1) : IVec S_ 1 :=
  let main_c_5 : IVec S_ 1 := constantI S_ 1 1#1
  let main_v17 : IVec S_ 1 := (fun x v => Host.reduce IntOp.andi x v reducesTo_S4x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x2 .f32 := Host.absf main_arg6
  let main_cst_8 : FVec F S_ .f32 := constant S_ .f32 0x7F800000#32
  let main_v25 : FVec F S2x2 .f32 := broadcastInDim S2x2 ![] bcast_S_S2x2 main_cst_8
  let main_v26 : IVec S2x2 1 := cmpf .olt main_v24 main_v25
  let main_c_9 : IVec S_ 1 := constantI S_ 1 1#1
  let main_v27 : IVec S_ 1 := (fun x v => Host.reduce IntOp.andi x v reducesTo_S2x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S500000x2 .f32) (main_arg1 : IVec S2x16000000 32) (main_arg2 : FVec F S2x4 .f32) (main_arg3 : FVec F S4 .f32) (main_arg4 : FVec F S4x2 .f32) (main_arg5 : FVec F S2 .f32) (main_arg6 : FVec F S2x2 .f32) (main_arg7 : FVec F S2 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S2x4 .f32 := Host.absf main_arg2
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x2 .f32 := Host.absf main_arg4
  let main_cst_4 : FVec F S_ .f32 := constant S_ .f32 0x7F800000#32
  let main_v15 : FVec F S4x2 .f32 := broadcastInDim S4x2 ![] bcast_S_S4x2 main_cst_4
  let main_v16 : IVec S4x2 1 := cmpf .olt main_v14 main_v15
  fn_part1 (F := F) main_arg5 main_arg6 main_arg7 main_v13 main_v16
-- ==== Kernel.lean ====
abbrev S500000x2 : Shape := ⟨2, ![500000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S2x2 : Shape := ⟨2, ![2, 2]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S2000x2 : Shape := ⟨2, ![2000, 2]⟩
abbrev S2000x4 : Shape := ⟨2, ![2000, 4]⟩
abbrev S16500000x4 : Shape := ⟨2, ![16500000, 4]⟩
abbrev S1x4 : Shape := ⟨2, ![1, 4]⟩
abbrev S16500000x2 : Shape := ⟨2, ![16500000, 2]⟩
abbrev S1x2 : Shape := ⟨2, ![1, 2]⟩

abbrev nBuf : Space → Nat
  | .hbm => 86
  | .vmem => 18
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S2x4, .f32⟩
  | .hbm, ⟨3, _⟩ => ⟨S4, .f32⟩
  | .hbm, ⟨4, _⟩ => ⟨S4x2, .f32⟩
  | .hbm, ⟨5, _⟩ => ⟨S2, .f32⟩
  | .hbm, ⟨6, _⟩ => ⟨S2x2, .f32⟩
  | .hbm, ⟨7, _⟩ => ⟨S2, .f32⟩
  | .hbm, ⟨8, _⟩ => ⟨S500000, .i32⟩
  | .hbm, ⟨9, _⟩ => ⟨S1x16000000, .i32⟩
  | .hbm, ⟨10, _⟩ => ⟨S16000000, .i32⟩
  | .hbm, ⟨11, _⟩ => ⟨S16500000, .i32⟩
  | .hbm, ⟨12, _⟩ => ⟨S1x16000000, .i32⟩
  | .hbm, ⟨13, _⟩ => ⟨S16000000, .i32⟩
  | .hbm, ⟨14, _⟩ => ⟨S16500000, .i32⟩
  | .hbm, ⟨15, _⟩ => ⟨S_, .f32⟩
  | .hbm, ⟨16, _⟩ => ⟨S16500000, .f32⟩
  | .hbm, ⟨17, _⟩ => ⟨S_, .f32⟩
  | .hbm, ⟨18, _⟩ => ⟨S500000, .f32⟩
  | .hbm, ⟨19, _⟩ => ⟨S16500000x1, .i32⟩
  | .hbm, ⟨20, _⟩ => ⟨S500000, .f32⟩
  | .hbm, ⟨21, _⟩ => ⟨S_, .f32⟩
  | .hbm, ⟨22, _⟩ => ⟨S500000, .f32⟩
  | .hbm, ⟨23, _⟩ => ⟨S500000, .i1⟩
  | .hbm, ⟨24, _⟩ => ⟨S500000, .f32⟩
  | .hbm, ⟨25, _⟩ => ⟨S_, .f32⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S_, .i32⟩
  | .hbm, ⟨30, _⟩ => ⟨S16500000, .i32⟩
  | .hbm, ⟨31, _⟩ => ⟨S16500000, .i1⟩
  | .hbm, ⟨32, _⟩ => ⟨S_, .i32⟩
  | .hbm, ⟨33, _⟩ => ⟨S16500000, .i32⟩
  | .hbm, ⟨34, _⟩ => ⟨S16500000, .i32⟩
  | .hbm, ⟨35, _⟩ => ⟨S16500000, .i32⟩
  | .hbm, ⟨36, _⟩ => ⟨S16500000x1, .i32⟩
  | .hbm, ⟨37, _⟩ => ⟨S16500000, .f32⟩
  | .hbm, ⟨38, _⟩ => ⟨S_, .i32⟩
  | .hbm, ⟨39, _⟩ => ⟨S16500000, .i32⟩
  | .hbm, ⟨40, _⟩ => ⟨S16500000, .i1⟩
  | .hbm, ⟨41, _⟩ => ⟨S_, .i32⟩
  | .hbm, ⟨42, _⟩ => ⟨S16500000, .i32⟩
  | .hbm, ⟨43, _⟩ => ⟨S16500000, .i32⟩
  | .hbm, ⟨44, _⟩ => ⟨S16500000, .i32⟩
  | .hbm, ⟨45, _⟩ => ⟨S16500000x1, .i32⟩
  | .hbm, ⟨46, _⟩ => ⟨S16500000, .f32⟩
  | .hbm, ⟨47, _⟩ => ⟨S16500000, .f32⟩
  | .hbm, ⟨48, _⟩ => ⟨S500000x4, .f32⟩
  | .hbm, ⟨49, _⟩ => ⟨S16500000x1, .f32⟩
  | .hbm, ⟨50, _⟩ => ⟨S_, .i32⟩
  | .hbm, ⟨51, _⟩ => ⟨S16500000, .i32⟩
  | .hbm, ⟨52, _⟩ => ⟨S16500000, .i1⟩
  | .hbm, ⟨53, _⟩ => ⟨S_, .i32⟩
  | .hbm, ⟨54, _⟩ => ⟨S16500000, .i32⟩
  | .hbm, ⟨55, _⟩ => ⟨S16500000, .i32⟩
  | .hbm, ⟨56, _⟩ => ⟨S16500000, .i32⟩
  | .hbm, ⟨57, _⟩ => ⟨S16500000x1, .i32⟩
  | .hbm, ⟨58, _⟩ => ⟨S16500000x4, .f32⟩
  | .hbm, ⟨59, _⟩ => ⟨S16500000x4, .f32⟩
  | .hbm, ⟨60, _⟩ => ⟨S16500000x4, .f32⟩
  | .hbm, ⟨61, _⟩ => ⟨S_, .f32⟩
  | .hbm, ⟨62, _⟩ => ⟨S500000x4, .f32⟩
  | .hbm, ⟨63, _⟩ => ⟨S16500000x1, .i32⟩
  | .hbm, ⟨64, _⟩ => ⟨S500000x4, .f32⟩
  | .hbm, ⟨65, _⟩ => ⟨S1x4, .f32⟩
  | .hbm, ⟨66, _⟩ => ⟨S500000x2, .f32⟩
  | .hbm, ⟨67, _⟩ => ⟨S16500000x1, .f32⟩
  | .hbm, ⟨68, _⟩ => ⟨S_, .i32⟩
  | .hbm, ⟨69, _⟩ => ⟨S16500000, .i32⟩
  | .hbm, ⟨70, _⟩ => ⟨S16500000, .i1⟩
  | .hbm, ⟨71, _⟩ => ⟨S_, .i32⟩
  | .hbm, ⟨72, _⟩ => ⟨S16500000, .i32⟩
  | .hbm, ⟨73, _⟩ => ⟨S16500000, .i32⟩
  | .hbm, ⟨74, _⟩ => ⟨S16500000, .i32⟩
  | .hbm, ⟨75, _⟩ => ⟨S16500000x1, .i32⟩
  | .hbm, ⟨76, _⟩ => ⟨S16500000x2, .f32⟩
  | .hbm, ⟨77, _⟩ => ⟨S16500000x2, .f32⟩
  | .hbm, ⟨78, _⟩ => ⟨S16500000x2, .f32⟩
  | .hbm, ⟨79, _⟩ => ⟨S_, .f32⟩
  | .hbm, ⟨80, _⟩ => ⟨S500000x2, .f32⟩
  | .hbm, ⟨81, _⟩ => ⟨S16500000x1, .i32⟩
  | .hbm, ⟨82, _⟩ => ⟨S500000x2, .f32⟩
  | .hbm, ⟨83, _⟩ => ⟨S1x2, .f32⟩
  | .hbm, ⟨84, _⟩ => ⟨S1x2, .f32⟩
  | .hbm, ⟨85, _⟩ => ⟨S500000x2, .f32⟩
  | .local _ .vmem, ⟨0, _⟩ => ⟨S2000x2, .f32⟩
  | .local _ .vmem, ⟨1, _⟩ => ⟨S2000x2, .f32⟩
  | .local _ .vmem, ⟨2, _⟩ => ⟨S2x4, .f32⟩
  | .local _ .vmem, ⟨3, _⟩ => ⟨S2000x4, .f32⟩
  | .local _ .vmem, ⟨4, _⟩ => ⟨S2000x4, .f32⟩
  | .local _ .vmem, ⟨5, _⟩ => ⟨S2000x4, .f32⟩
  | .local _ .vmem, ⟨6, _⟩ => ⟨S2000x4, .f32⟩
  | .local _ .vmem, ⟨7, _⟩ => ⟨S1x4, .f32⟩
  | .local _ .vmem, ⟨8, _⟩ => ⟨S4x2, .f32⟩
  | .local _ .vmem, ⟨9, _⟩ => ⟨S2000x2, .f32⟩
  | .local _ .vmem, ⟨10, _⟩ => ⟨S2000x2, .f32⟩
  | .local _ .vmem, ⟨11, _⟩ => ⟨S2000x2, .f32⟩
  | .local _ .vmem, ⟨12, _⟩ => ⟨S2000x2, .f32⟩
  | .local _ .vmem, ⟨13, _⟩ => ⟨S1x2, .f32⟩
  | .local _ .vmem, ⟨14, _⟩ => ⟨S2x2, .f32⟩
  | .local _ .vmem, ⟨15, _⟩ => ⟨S1x2, .f32⟩
  | .local _ .vmem, ⟨16, _⟩ => ⟨S2000x2, .f32⟩
  | .local _ .vmem, ⟨17, _⟩ => ⟨S2000x2, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  inb_S2000x2_S2000x2_0_0 : ∀ a, (![0, 0] : Fin 2 → Nat) a + S2000x2.size a ≤ S2000x2.size a
  h_S2000x2 : 0 < S2000x2.numel
  inb_S2x4_S2x4_0_0 : ∀ a, (![0, 0] : Fin 2 → Nat) a + S2x4.size a ≤ S2x4.size a
  h_S2x4 : 0 < S2x4.numel
  inb_S2000x4_S2000x4_0_0 : ∀ a, (![0, 0] : Fin 2 → Nat) a + S2000x4.size a ≤ S2000x4.size a
  h_S2000x4 : 0 < S2000x4.numel
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  shapeCasts_S4_S1x4 : S4.ShapeCasts S1x4
  shapeCasts_S2000x4_S2000x4 : S2000x4.ShapeCasts S2000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S4x2_S4x2_0_0 : ∀ a, (![0, 0] : Fin 2 → Nat) a + S4x2.size a ≤ S4x2.size a
  h_S4x2 : 0 < S4x2.numel
  bcast_S16500000x1_S16500000x2_0_1 : S16500000x1.BroadcastsInDim S16500000x2 (![0, 1] : Fin 2 → Fin S16500000x2.rank)
  bcast_S_S500000x2 : S_.BroadcastsInDim S500000x2 (![] : Fin 0 → Fin S500000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2x2_S2x2_0_0 : ∀ a, (![0, 0] : Fin 2 → Nat) a + S2x2.size a ≤ S2x2.size a
  h_S2x2 : 0 < S2x2.numel
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S2000x2_S2x4_S2000x4_1_0_0_1_n_n_wf : DotDims.WF S2000x2 S2x4 S2000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S2000x4_S4x2_S2000x2_1_0_0_1_n_n_wf : DotDims.WF S2000x4 S4x2 S2000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1
  dot_S2000x2_S2x2_S2000x2_1_0_0_1_n_n_wf : DotDims.WF S2000x2 S2x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S500000x2.size a
  hwx0_0 : ∀ i : grid0.Coords, EltTy.bits .f32 = 32 ∨ (Rect.block (s := S500000x2) S2000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x4.size a ≤ S2x4.size a
  hwx0_1 : ∀ i : grid0.Coords, EltTy.bits .f32 = 32 ∨ (Rect.block (s := S2x4) S2x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x4.size a ≤ S500000x4.size a
  hwx0_2 : ∀ i : grid0.Coords, EltTy.bits .f32 = 32 ∨ (Rect.block (s := S500000x4) S2000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x4.size a ≤ S500000x4.size a
  hwx1_0 : ∀ i : grid1.Coords, EltTy.bits .f32 = 32 ∨ (Rect.block (s := S500000x4) S2000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x2.size a ≤ S4x2.size a
  hwx1_2 : ∀ i : grid1.Coords, EltTy.bits .f32 = 32 ∨ (Rect.block (s := S4x2) S4x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x2.size a ≤ S500000x2.size a
  hwx1_3 : ∀ i : grid1.Coords, EltTy.bits .f32 = 32 ∨ (Rect.block (s := S500000x2) S2000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2.size a ≤ S500000x2.size a
  hwx2_0 : ∀ i : grid2.Coords, EltTy.bits .f32 = 32 ∨ (Rect.block (s := S500000x2) S2000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x2.size a ≤ S2x2.size a
  hwx2_2 : ∀ i : grid2.Coords, EltTy.bits .f32 = 32 ∨ (Rect.block (s := S2x2) S2x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x2.size a ≤ S500000x2.size a
  hwx2_4 : ∀ i : grid2.Coords, EltTy.bits .f32 = 32 ∨ (Rect.block (s := S500000x2) S2000x2.size (cc2_transform_4 i) (hinb2_4 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S2000x2_S2x4_S2000x4_1_0_0_1_n_n : DotDims S2000x2 S2x4 S2000x4 where
  lhsContracting := [1]
  rhsContracting := [0]
  lhsNonContracting := [0]
  rhsNonContracting := [1]
  lhsBatch := []
  rhsBatch := []
  wf := dot_S2000x2_S2x4_S2000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S2000x4_S4x2_S2000x2_1_0_0_1_n_n : DotDims S2000x4 S4x2 S2000x2 where
  lhsContracting := [1]
  rhsContracting := [0]
  lhsNonContracting := [0]
  rhsNonContracting := [1]
  lhsBatch := []
  rhsBatch := []
  wf := dot_S2000x4_S4x2_S2000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf
def dot_S2000x2_S2x2_S2000x2_1_0_0_1_n_n : DotDims S2000x2 S2x2 S2000x2 where
  lhsContracting := [1]
  rhsContracting := [0]
  lhsNonContracting := [0]
  rhsNonContracting := [1]
  lhsBatch := []
  rhsBatch := []
  wf := dot_S2000x2_S2x2_S2000x2_1_0_0_1_n_n_wf

abbrev win0_0 : Pipeline.Window sig grid0 :=
  Pipeline.Window.ofSpec (Memref.whole main_arg0) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S4x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S2x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S2000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S500000x2 : Shape := ⟨2, ![500000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S2x2 : Shape := ⟨2, ![2, 2]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S16500000x4 : Shape := ⟨2, ![16500000, 4]⟩
abbrev S1x4 : Shape := ⟨2, ![1, 4]⟩
abbrev S16500000x2 : Shape := ⟨2, ![16500000, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S500000x2, .f32⟩
  | 1 => ⟨S2x16000000, .i32⟩
  | 2 => ⟨S2x4, .f32⟩
  | 3 => ⟨S4, .f32⟩
  | 4 => ⟨S4x2, .f32⟩
  | 5 => ⟨S2, .f32⟩
  | 6 => ⟨S2x2, .f32⟩
  | 7 => ⟨S2, .f32⟩
  | 8 => ⟨S500000, .i32⟩
  | 9 => ⟨S1x16000000, .i32⟩
  | 10 => ⟨S16000000, .i32⟩
  | 11 => ⟨S16500000, .i32⟩
  | 12 => ⟨S1x16000000, .i32⟩
  | 13 => ⟨S16000000, .i32⟩
  | 14 => ⟨S16500000, .i32⟩
  | 15 => ⟨S_, .f32⟩
  | 16 => ⟨S16500000, .f32⟩
  | 17 => ⟨S_, .f32⟩
  | 18 => ⟨S500000, .f32⟩
  | 19 => ⟨S16500000x1, .i32⟩
  | 20 => ⟨S500000, .f32⟩
  | 21 => ⟨S_, .f32⟩
  | 22 => ⟨S500000, .f32⟩
  | 23 => ⟨S500000, .i1⟩
  | 24 => ⟨S500000, .f32⟩
  | 25 => ⟨S_, .f32⟩
  | 26 => ⟨S_, .f32⟩
  | 27 => ⟨S500000, .f32⟩
  | 28 => ⟨S500000, .f32⟩
  | 29 => ⟨S_, .i32⟩
  | 30 => ⟨S16500000, .i32⟩
  | 31 => ⟨S16500000, .i1⟩
  | 32 => ⟨S_, .i32⟩
  | 33 => ⟨S16500000, .i32⟩
  | 34 => ⟨S16500000, .i32⟩
  | 35 => ⟨S16500000, .i32⟩
  | 36 => ⟨S16500000x1, .i32⟩
  | 37 => ⟨S16500000, .f32⟩
  | 38 => ⟨S_, .i32⟩
  | 39 => ⟨S16500000, .i32⟩
  | 40 => ⟨S16500000, .i1⟩
  | 41 => ⟨S_, .i32⟩
  | 42 => ⟨S16500000, .i32⟩
  | 43 => ⟨S16500000, .i32⟩
  | 44 => ⟨S16500000, .i32⟩
  | 45 => ⟨S16500000x1, .i32⟩
  | 46 => ⟨S16500000, .f32⟩
  | 47 => ⟨S16500000, .f32⟩
  | 48 => ⟨S500000x4, .f32⟩
  | 49 => ⟨S16500000x1, .f32⟩
  | 50 => ⟨S_, .i32⟩
  | 51 => ⟨S16500000, .i32⟩
  | 52 => ⟨S16500000, .i1⟩
  | 53 => ⟨S_, .i32⟩
  | 54 => ⟨S16500000, .i32⟩
  | 55 => ⟨S16500000, .i32⟩
  | 56 => ⟨S16500000, .i32⟩
  | 57 => ⟨S16500000x1, .i32⟩
  | 58 => ⟨S16500000x4, .f32⟩
  | 59 => ⟨S16500000x4, .f32⟩
  | 60 => ⟨S16500000x4, .f32⟩
  | 61 => ⟨S_, .f32⟩
  | 62 => ⟨S500000x4, .f32⟩
  | 63 => ⟨S16500000x1, .i32⟩
  | 64 => ⟨S500000x4, .f32⟩
  | 65 => ⟨S1x4, .f32⟩
  | 66 => ⟨S500000x4, .f32⟩
  | 67 => ⟨S500000x4, .f32⟩
  | 68 => ⟨S500000x4, .f32⟩
  | 69 => ⟨S500000, .i32⟩
  | 70 => ⟨S1x16000000, .i32⟩
  | 71 => ⟨S16000000, .i32⟩
  | 72 => ⟨S16500000, .i32⟩
  | 73 => ⟨S1x16000000, .i32⟩
  | 74 => ⟨S16000000, .i32⟩
  | 75 => ⟨S16500000, .i32⟩
  | 76 => ⟨S_, .f32⟩
  | 77 => ⟨S16500000, .f32⟩
  | 78 => ⟨S_, .f32⟩
  | 79 => ⟨S500000, .f32⟩
  | 80 => ⟨S16500000x1, .i32⟩
  | 81 => ⟨S500000, .f32⟩
  | 82 => ⟨S_, .f32⟩
  | 83 => ⟨S500000, .f32⟩
  | 84 => ⟨S500000, .i1⟩
  | 85 => ⟨S500000, .f32⟩
  | 86 => ⟨S_, .f32⟩
  | 87 => ⟨S_, .f32⟩
  | 88 => ⟨S500000, .f32⟩
  | 89 => ⟨S500000, .f32⟩
  | 90 => ⟨S_, .i32⟩
  | 91 => ⟨S16500000, .i32⟩
  | 92 => ⟨S16500000, .i1⟩
  | 93 => ⟨S_, .i32⟩
  | 94 => ⟨S16500000, .i32⟩
  | 95 => ⟨S16500000, .i32⟩
  | 96 => ⟨S16500000, .i32⟩
  | 97 => ⟨S16500000x1, .i32⟩
  | 98 => ⟨S16500000, .f32⟩
  | 99 => ⟨S_, .i32⟩
  | 100 => ⟨S16500000, .i32⟩
  | 101 => ⟨S16500000, .i1⟩
  | 102 => ⟨S_, .i32⟩
  | 103 => ⟨S16500000, .i32⟩
  | 104 => ⟨S16500000, .i32⟩
  | 105 => ⟨S16500000, .i32⟩
  | 106 => ⟨S16500000x1, .i32⟩
  | 107 => ⟨S16500000, .f32⟩
  | 108 => ⟨S16500000, .f32⟩
  | 109 => ⟨S500000x2, .f32⟩
  | 110 => ⟨S16500000x1, .f32⟩
  | 111 => ⟨S_, .i32⟩
  | 112 => ⟨S16500000, .i32⟩
  | 113 => ⟨S16500000, .i1⟩
  | 114 => ⟨S_, .i32⟩
  | 115 => ⟨S16500000, .i32⟩
  | 116 => ⟨S16500000, .i32⟩
  | 117 => ⟨S16500000, .i32⟩
  | 118 => ⟨S16500000x1, .i32⟩
  | 119 => ⟨S16500000x2, .f32⟩
  | 120 => ⟨S16500000x2, .f32⟩
  | 121 => ⟨S16500000x2, .f32⟩
  | 122 => ⟨S_, .f32⟩
  | 123 => ⟨S500000x2, .f32⟩
  | 124 => ⟨S16500000x1, .i32⟩
  | 125 => ⟨S500000x2, .f32⟩
  | 126 => ⟨S1x2, .f32⟩
  | 127 => ⟨S500000x2, .f32⟩
  | _ => ⟨S500000x2, .f32⟩

abbrev hbmTy0_1 (i : Nat) : BufTy := match i % 128 with
  | 0 => ⟨S500000x2, .f32⟩
  | 1 => ⟨S500000x2, .f32⟩
  | 2 => ⟨S500000x2, .f32⟩
  | 3 => ⟨S1x2, .f32⟩
  | 4 => ⟨S500000x2, .f32⟩
  | 5 => ⟨S500000x2, .f32⟩
  | _ => ⟨S500000x2, .f32⟩

abbrev hbmTy (i : Nat) : BufTy := match i / 128 with
  | 0 => hbmTy0_0 i
  | 1 => hbmTy0_1 i
  | _ => ⟨S500000x2, .f32⟩

abbrev bufTy : (tb : Table) → Fin (tcTables nBuf tb) → BufTy
  | .hbm, ⟨i, _⟩ => hbmTy i
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S16500000x1_S16500000x2_0_1 : S16500000x1.BroadcastsInDim S16500000x2 (![0, 1] : Fin 2 → Fin S16500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x2_S2x4_S500000x4_1_0_0_1_n_n_wf : DotDims.WF S500000x2 S2x4 S500000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S500000x4_S4x2_S500000x2_1_0_0_1_n_n_wf : DotDims.WF S500000x4 S4x2 S500000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1
  dot_S500000x2_S2x2_S500000x2_1_0_0_1_n_n_wf : DotDims.WF S500000x2 S2x2 S500000x2 [1] [0] [0] [1] [] []

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x2_S2x4_S500000x4_1_0_0_1_n_n : DotDims S500000x2 S2x4 S500000x4 where
  lhsContracting := [1]
  rhsContracting := [0]
  lhsNonContracting := [0]
  rhsNonContracting := [1]
  lhsBatch := []
  rhsBatch := []
  wf := dot_S500000x2_S2x4_S500000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S500000x4_S4x2_S500000x2_1_0_0_1_n_n : DotDims S500000x4 S4x2 S500000x2 where
  lhsContracting := [1]
  rhsContracting := [0]
  lhsNonContracting := [0]
  rhsNonContracting := [1]
  lhsBatch := []
  rhsBatch := []
  wf := dot_S500000x4_S4x2_S500000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf
def dot_S500000x2_S2x2_S500000x2_1_0_0_1_n_n : DotDims S500000x2 S2x2 S500000x2 where
  lhsContracting := [1]
  rhsContracting := [0]
  lhsNonContracting := [0]
  rhsNonContracting := [1]
  lhsBatch := []
  rhsBatch := []
  wf := dot_S500000x2_S2x2_S500000x2_1_0_0_1_n_n_wf

class Facts : Prop extends Facts₀ where

variable [Facts]
-- ==== Proof.RunK.lean ====
/-
  The idealized kernel's whole run, with every surviving buffer named.

  The program is three pipelined regions among stretches of host operations. Its run from any launch memory ends,
  on every core, with every buffer that outlives the regions at the contents the fold of the segments leaves there:
  in particular the result array at what the last region's write-backs leave, and the argument arrays as launched.
-/
import proofs.«130917_j51616916964127_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ghost state the launch starts from: every pipeline's cells at their initial tokens. -/
abbrev tok₀ := initOf (Pipeline.cells cfgs cellOf_inj) (Pipeline.launchToks cfgs cellOf_inj)

set_option backward.isDefEq.respectTransparency.types false in
/-- Every weakly fair execution terminates without a fault, and every buffer that outlives the regions ends at the
    last boundary's contents: the segments chained from the launch memory, the last thread state read against the
    final memory. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := tok₀)
    (hu₀ := by
      -- the launch tokens are the pipelines' ghost state; no core takes anything else
      iintro Hu; imodintro
      isplitl [Hu]
      · iapply (show (ownU tok₀ : sProp 𝕄) ⊢ BI.own (emb₁ tok₀) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      -- each core's launch holdings regrouped as the first segment's thread state
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      -- the last thread state holds every surviving buffer whole: read them off the final memory
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result array and the arguments named: the result at the last boundary's contents, the
    arguments as launched (no segment writes one). -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (run_held m ρ)

end Cert.KernelIdeal.Whole

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.Layers.lean ====
/-
  The three dense layers of the graph network, entry by entry, and what each kernel body stores, read at an entry.

  A block of rows of the node features enters each body; the body applies the layer to every row of the block
  independently: row `p` of the stored block depends on row `p` of the loaded block only. The first body is a plain
  product `x · W`; the second adds the bias row, applies `tanh` and multiplies by the weights; the third does the
  same and adds a second bias row to the product.
-/
import proofs.«130917_j51616916964127_2_alg».proof.Proof.Gen.KernelIdeal.Skeleton
import proofs.«130917_j51616916964127_2_alg».proof.Proof.LibMatProduct
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx Idealize.ShloMosaic.Pipeline

/-- Entry `(r, c)` of the product `x · w`. -/
def lin {n k o : ℕ} (x : (⟨2, ![n, k]⟩ : Shape).Idx → EReal) (w : (⟨2, ![k, o]⟩ : Shape).Idx → EReal)
    (r : Fin n) (c : Fin o) : EReal :=
  ∑ h : Fin k, x (ix2 r h) * w (ix2 h c)

/-- Entry `(r, c)` of `tanh (a + b) · w`, the bias row `b` added to every row of `a`. -/
def act {n k o : ℕ} (a : (⟨2, ![n, k]⟩ : Shape).Idx → EReal) (b : (⟨2, ![1, k]⟩ : Shape).Idx → EReal)
    (w : (⟨2, ![k, o]⟩ : Shape).Idx → EReal) (r : Fin n) (c : Fin o) : EReal :=
  ∑ h : Fin k, Ideal.tanh (a (ix2 r h) + b (ix2 (0 : Fin 1) h)) * w (ix2 h c)

/-- The first layer's transform of all rows: `x · w`. -/
def layer0 {n k o : ℕ} (x : (⟨2, ![n, k]⟩ : Shape).Idx → EReal) (w : (⟨2, ![k, o]⟩ : Shape).Idx → EReal) :
    (⟨2, ![n, o]⟩ : Shape).Idx → EReal := fun i => lin x w (i 0) (i 1)

/-- The second layer's transform of all rows: `tanh (a + b) · w`. -/
def layer1 {n k o : ℕ} (a : (⟨2, ![n, k]⟩ : Shape).Idx → EReal) (b : (⟨2, ![1, k]⟩ : Shape).Idx → EReal)
    (w : (⟨2, ![k, o]⟩ : Shape).Idx → EReal) : (⟨2, ![n, o]⟩ : Shape).Idx → EReal := fun i => act a b w (i 0) (i 1)

/-- The classifier on all rows: `tanh (a + b) · w + bc`. -/
def layer2 {n k o : ℕ} (a : (⟨2, ![n, k]⟩ : Shape).Idx → EReal) (b : (⟨2, ![1, k]⟩ : Shape).Idx → EReal)
    (w : (⟨2, ![k, o]⟩ : Shape).Idx → EReal) (bc : (⟨2, ![1, o]⟩ : Shape).Idx → EReal) :
    (⟨2, ![n, o]⟩ : Shape).Idx → EReal := fun i => act a b w (i 0) (i 1) + bc (ix2 (0 : Fin 1) (i 1))

/-- A vector as a one-row matrix. -/
def rowOf {k : ℕ} (b : (⟨1, ![k]⟩ : Shape).Idx → EReal) : (⟨2, ![1, k]⟩ : Shape).Idx → EReal := fun i => b (ix1 (i 1))

open Cert.KernelIdeal Cert.KernelIdeal.Gen

/-- What the first body stores, at row `p` and column `q` of its block: row `p` of the loaded block times the weights. -/
theorem pay0_apply (x0 : Vec Ideal S2000x2 .f32) (x1 : Vec Ideal S2x4 .f32) (p : Fin 2000) (q : Fin 4) :
    k0_pay1 x0 x1 (ix2 p q) = lin x0 x1 p q := by
  unfold k0_pay1
  exact Cert.LibMatProduct.matmul_zero_apply _ none rfl rfl rfl rfl rfl rfl x0 x1 p q

/-- The biased, squashed row entry the second and third bodies feed their product. -/
theorem hidden_apply {k : ℕ} (x0 : (⟨2, ![2000, k]⟩ : Shape).Idx → EReal) (x1 : (⟨2, ![1, k]⟩ : Shape).Idx → EReal)
    (h0 : (⟨2, ![2000, k]⟩ : Shape).ShapeCasts ⟨2, ![2000, k]⟩) (h1 : (⟨2, ![1, k]⟩ : Shape).ShapeCasts ⟨2, ![1, k]⟩)
    (hb : (⟨2, ![1, k]⟩ : Shape).Broadcasts ⟨2, ![2000, k]⟩) (p : Fin 2000) (h : Fin k) :
    tanh (F := Ideal) (φ := .f32) (addf (shapeCast ⟨2, ![2000, k]⟩ x0 h0) (broadcastTo ⟨2, ![2000, k]⟩ (shapeCast ⟨2, ![1, k]⟩ x1 h1) hb)) (ix2 p h)
      = Ideal.tanh (x0 (ix2 p h) + x1 (ix2 (0 : Fin 1) h)) := by
  show Ideal.tanh ((shapeCast ⟨2, ![2000, k]⟩ x0 h0) (ix2 p h) + (broadcastTo ⟨2, ![2000, k]⟩ (shapeCast ⟨2, ![1, k]⟩ x1 h1) hb) (ix2 p h)) = _
  rw [shapeCast_self, shapeCast_self, broadcastTo_1b_ab_apply]

/-- What the second body stores, at row `p` and column `q` of its block. -/
theorem pay1_apply (x0 : Vec Ideal S2000x4 .f32) (x1 : Vec Ideal S1x4 .f32) (x2 : Vec Ideal S4x2 .f32) (p : Fin 2000) (q : Fin 2) :
    k1_pay1 x0 x1 x2 (ix2 p q) = act x0 x1 x2 p q := by
  unfold k1_pay1
  refine (Cert.LibMatProduct.matmul_zero_apply _ none rfl rfl rfl rfl rfl rfl _ x2 p q).trans ?_
  exact Finset.sum_congr rfl fun h _ => congrArg (· * x2 (ix2 h q)) (hidden_apply x0 x1 _ _ _ p h)

/-- What the third body stores, at row `p` and column `q` of its block. -/
theorem pay2_apply (x0 : Vec Ideal S2000x2 .f32) (x1 : Vec Ideal S1x2 .f32) (x2 : Vec Ideal S2x2 .f32) (x3 : Vec Ideal S1x2 .f32)
    (p : Fin 2000) (q : Fin 2) :
    k2_pay1 x0 x1 x2 x3 (ix2 p q) = act x0 x1 x2 p q + x3 (ix2 (0 : Fin 1) q) := by
  unfold k2_pay1
  refine (addf_apply _ _ (ix2 p q)).trans ?_
  refine congrArg₂ (· + ·) ?_ ?_
  · refine (Cert.LibMatProduct.matmul_zero_apply _ none rfl rfl rfl rfl rfl rfl _ x2 p q).trans ?_
    exact Finset.sum_congr rfl fun h _ => congrArg (· * x2 (ix2 h q)) (hidden_apply x0 x1 _ _ _ p h)
  · rw [shapeCast_self]
    exact broadcastTo_1b_ab_apply _ _ p q

end Cert.Gcn

end
-- ==== Proof.Region0.lean ====
/-
  The first region: the node features times the first weight matrix, 2000 rows at a time.

  Point `t` of the grid loads rows `2000·t … 2000·t + 1999` of the features and the whole weight matrix, and writes
  back the same rows of the product. The 250 blocks tile the result, so after the region the result array is the
  whole product, whatever the region found in it.
-/
import proofs.«130917_j51616916964127_2_alg».proof.Proof.Gen.KernelIdeal.Frame
import proofs.«130917_j51616916964127_2_alg».proof.Proof.Layers
import Idealize.ShloMosaic.Lib.Pipeline.Value

set_option maxRecDepth 16384

noncomputable section

namespace Cert.Gcn.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window is on at point `t`: the row windows on block `t`, the weights on their one block. -/
theorem blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the feature block at point `t` is row `2000·t + p` of the features. -/
theorem rows_apply (c : Dev nD) (t : Fin cfg0.N) (p : Fin 2000) (h : Fin 2) (r : Fin 500000) (hr : r.val = t.val * 2000 + p.val) :
    (iblk0 V c 0 t : Vec Ideal S2000x2 .f32) (ix2 p h) = (V c main_arg0 : S500000x2.Idx → EReal) (ix2 r h) := by
  obtain ⟨e0, e1, -⟩ := blocks t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 2 + 1 * h.val = h.val; rw [e1]; omega

/-- The weight block at every point is the weight matrix. -/
theorem weights_apply (c : Dev nD) (t : Fin cfg0.N) (h : Fin 2) (q q' : Fin 4) (hq : q'.val = q.val) :
    (iblk0 V c 1 t : Vec Ideal S2x4 .f32) (ix2 h q) = (V c main_arg2 : S2x4.Idx → EReal) (ix2 h q') := by
  obtain ⟨-, -, e2, e3, -⟩ := blocks t
  unfold iblk0
  rw [View.read_apply]
  show V c main_arg2 _ = V c main_arg2 _
  refine congrArg (V c main_arg2) (funext fun a => Fin.ext ?_)
  match a with
  | ⟨0, _⟩ => show win0_1.index t (0 : Fin 2) * 2 + 1 * h.val = h.val; rw [e2]; omega
  | ⟨1, _⟩ => show win0_1.index t (1 : Fin 2) * 4 + 1 * q.val = q'.val; rw [e3, hq]; omega

/-- What point `t` writes back is block `t` of the whole product. -/
theorem flushed_eq (c : Dev nD) (t : Fin cfg0.N) :
    (dat0 V c).flushed 2 t = ((cfg0.win 2).blk t).view.read (Elt Ideal) (layer0 (V c main_arg0) (V c main_arg2)) := by
  show (cfg0.win 2).cut (grid0.coords t) ((dat0 V c).after 2 t) = _
  rw [after0_2]
  unfold out0_2
  rw [View.canon_unit_zero hz]
  simp only [View.ld_unit_zero (S := S2000x2) hz, View.ld_unit_zero (S := S2x4) hz]
  funext j
  obtain ⟨p, q, rfl⟩ : ∃ (p : Fin 2000) (q : Fin 4), j = ix2 p q := ⟨j 0, j 1, eq_ix2 j⟩
  obtain ⟨-, -, -, -, e4, e5⟩ := blocks t
  have hr : ((((cfg0.win 2).blk t).view.emb (ix2 p q)) 0).val = t.val * 2000 + p.val := by
    show win0_2.index t (0 : Fin 2) * 2000 + 1 * p.val = _; rw [e4]; omega
  have hc : ((((cfg0.win 2).blk t).view.emb (ix2 p q)) 1).val = q.val := by
    show win0_2.index t (1 : Fin 2) * 4 + 1 * q.val = _; rw [e5]; omega
  show k0_pay1 (iblk0 V c 0 t) (iblk0 V c 1 t) (ix2 p q)
    = lin (V c main_arg0) (V c main_arg2) ((((cfg0.win 2).blk t).view.emb (ix2 p q)) 0) ((((cfg0.win 2).blk t).view.emb (ix2 p q)) 1)
  refine (pay0_apply (iblk0 V c 0 t) (iblk0 V c 1 t) p q).trans ?_
  exact Finset.sum_congr rfl fun h _ => congrArg₂ (· * ·) (rows_apply V c t p h _ hr) (weights_apply V c t h q _ hc)

/-- An index of the result is in point `t`'s block iff its row is among the block's 2000 rows. -/
theorem mem_blk (t : Fin cfg0.N) (i : S500000x4.Idx) :
    i ∈ ((cfg0.win 2).blk t).view.set ↔ ∀ a : Fin 2, win0_2.index t a * S2000x4.size a ≤ (i a).val ∧ (i a).val < win0_2.index t a * S2000x4.size a + S2000x4.size a := by
  show i ∈ ((View.whole main_v30).slice (win0_2.rect t)).set ↔ _
  rw [View.set_slice_whole, Rect.mem_set_unit]
  exact Iff.rfl

/-- Every index of the result is in the block of the point its row falls in. -/
theorem cover (i : S500000x4.Idx) : ∃ t : Fin cfg0.N, (cfg0.win 2).flush t = true ∧ i ∈ ((cfg0.win 2).blk t).view.set := by
  have h0 : (i 0).val < 500000 := (i 0).isLt
  have h1 : (i 1).val < 4 := (i 1).isLt
  have hN : cfg0.N = 250 := N_0
  have ht : (i 0).val / 2000 < cfg0.N := by rw [hN]; omega
  refine ⟨⟨(i 0).val / 2000, ht⟩, flush0_2 _, ?_⟩
  rw [mem_blk]
  obtain ⟨-, -, -, -, e4, e5⟩ := blocks ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 4 ≤ (i 1).val ∧ (i 1).val < win0_2.index ⟨(i 0).val / 2000, ht⟩ (1 : Fin 2) * 4 + 4
    rw [e5]; omega

/-- After the region the result array is the whole product of what the region found in its two operands. -/
theorem final (c : Dev nD) : (dat0 V c).arrAt 2 cfg0.N = layer0 (V c main_arg0) (V c main_arg2) :=
  (dat0 V c).arrAt_eq_of_cover 2 (layer0 (V c main_arg0) (V c main_arg2)) (fun t _ => flushed_eq V c t) cover

end Cert.Gcn.Region0

end
-- ==== Proof.Region1.lean ====
/-
  The second region: `tanh (agg + b) · W` on the aggregated features, 2000 rows at a time.

  Point `t` of the grid loads rows `2000·t … 2000·t + 1999` of the aggregate, the bias row and the whole weight
  matrix, and writes back the same rows of the layer's output. The 250 blocks tile the result, so after the region
  the result array is the layer applied to every row of what the region found.
-/
import proofs.«130917_j51616916964127_2_alg».proof.Proof.Gen.KernelIdeal.Frame
import proofs.«130917_j51616916964127_2_alg».proof.Proof.Layers
import Idealize.ShloMosaic.Lib.Pipeline.Value

set_option maxRecDepth 16384

noncomputable section

namespace Cert.Gcn.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window is on at point `t`: the row windows on block `t`, the bias and the weights on their one block. -/
theorem blocks : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the aggregate's block at point `t` is row `2000·t + p` of the aggregate. -/
theorem rows_apply (c : Dev nD) (t : Fin cfg1.N) (p : Fin 2000) (h : Fin 4) (r : Fin 500000) (hr : r.val = t.val * 2000 + p.val) :
    (iblk1 V c 0 t : Vec Ideal S2000x4 .f32) (ix2 p h) = (V c main_v43 : S500000x4.Idx → EReal) (ix2 r h) := by
  obtain ⟨e0, e1, -⟩ := blocks t
  unfold iblk1
  rw [View.read_apply]
  show V c main_v43 _ = V c main_v43 _
  refine congrArg (V c main_v43) (funext fun a => Fin.ext ?_)
  match a with
  | ⟨0, _⟩ => show win1_0.index t (0 : Fin 2) * 2000 + 1 * p.val = r.val; rw [e0, hr]; omega
  | ⟨1, _⟩ => show win1_0.index t (1 : Fin 2) * 4 + 1 * h.val = h.val; rw [e1]; omega

/-- The bias block at every point is the bias row. -/
theorem bias_apply (c : Dev nD) (t : Fin cfg1.N) (u : Fin 1) (h : Fin 4) :
    (iblk1 V c 1 t : Vec Ideal S1x4 .f32) (ix2 u h) = (V c main_v44 : S1x4.Idx → EReal) (ix2 u h) := by
  obtain ⟨-, -, e2, e3, -⟩ := blocks t
  unfold iblk1
  rw [View.read_apply]
  show V c main_v44 _ = V c main_v44 _
  refine congrArg (V c main_v44) (funext fun a => Fin.ext ?_)
  match a with
  | ⟨0, _⟩ => show win1_1.index t (0 : Fin 2) * 1 + 1 * u.val = u.val; rw [e2]; omega
  | ⟨1, _⟩ => show win1_1.index t (1 : Fin 2) * 4 + 1 * h.val = h.val; rw [e3]; omega

/-- The weight block at every point is the weight matrix. -/
theorem weights_apply (c : Dev nD) (t : Fin cfg1.N) (h : Fin 4) (q q' : Fin 2) (hq : q'.val = q.val) :
    (iblk1 V c 2 t : Vec Ideal S4x2 .f32) (ix2 h q) = (V c main_arg4 : S4x2.Idx → EReal) (ix2 h q') := by
  obtain ⟨-, -, -, -, e4, e5, -⟩ := blocks t
  unfold iblk1
  rw [View.read_apply]
  show V c main_arg4 _ = V c main_arg4 _
  refine congrArg (V c main_arg4) (funext fun a => Fin.ext ?_)
  match a with
  | ⟨0, _⟩ => show win1_2.index t (0 : Fin 2) * 4 + 1 * h.val = h.val; rw [e4]; omega
  | ⟨1, _⟩ => show win1_2.index t (1 : Fin 2) * 2 + 1 * q.val = q'.val; rw [e5, hq]; omega

/-- What point `t` writes back is block `t` of the layer applied to every row. -/
theorem flushed_eq (c : Dev nD) (t : Fin cfg1.N) :
    (dat1 V c).flushed 3 t = ((cfg1.win 3).blk t).view.read (Elt Ideal) (layer1 (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S2000x4) hz, View.ld_unit_zero (S := S1x4) hz, View.ld_unit_zero (S := S4x2) hz]
  funext j
  obtain ⟨p, q, rfl⟩ : ∃ (p : Fin 2000) (q : Fin 2), j = ix2 p q := ⟨j 0, j 1, eq_ix2 j⟩
  obtain ⟨-, -, -, -, -, -, e6, e7⟩ := blocks t
  have hr : ((((cfg1.win 3).blk t).view.emb (ix2 p q)) 0).val = t.val * 2000 + p.val := by
    show win1_3.index t (0 : Fin 2) * 2000 + 1 * p.val = _; rw [e6]; omega
  have hc : ((((cfg1.win 3).blk t).view.emb (ix2 p q)) 1).val = q.val := by
    show win1_3.index t (1 : Fin 2) * 2 + 1 * q.val = _; rw [e7]; omega
  show k1_pay1 (iblk1 V c 0 t) (iblk1 V c 1 t) (iblk1 V c 2 t) (ix2 p q)
    = act (V c main_v43) (V c main_v44) (V c main_arg4) ((((cfg1.win 3).blk t).view.emb (ix2 p q)) 0) ((((cfg1.win 3).blk t).view.emb (ix2 p q)) 1)
  refine (pay1_apply (iblk1 V c 0 t) (iblk1 V c 1 t) (iblk1 V c 2 t) p q).trans ?_
  exact Finset.sum_congr rfl fun h _ => congrArg₂ (· * ·)
    (congrArg Ideal.tanh (congrArg₂ (· + ·) (rows_apply V c t p h _ hr) (bias_apply V c t 0 h)))
    (weights_apply V c t h q _ hc)

/-- An index of the result is in point `t`'s block iff its row is among the block's 2000 rows. -/
theorem mem_blk (t : Fin cfg1.N) (i : S500000x2.Idx) :
    i ∈ ((cfg1.win 3).blk t).view.set ↔ ∀ a : Fin 2, win1_3.index t a * S2000x2.size a ≤ (i a).val ∧ (i a).val < win1_3.index t a * S2000x2.size a + S2000x2.size a := by
  show i ∈ ((View.whole main_v45).slice (win1_3.rect t)).set ↔ _
  rw [View.set_slice_whole, Rect.mem_set_unit]
  exact Iff.rfl

/-- Every index of the result is in the block of the point its row falls in. -/
theorem cover (i : S500000x2.Idx) : ∃ t : Fin cfg1.N, (cfg1.win 3).flush t = true ∧ i ∈ ((cfg1.win 3).blk t).view.set := by
  have h0 : (i 0).val < 500000 := (i 0).isLt
  have h1 : (i 1).val < 2 := (i 1).isLt
  have hN : cfg1.N = 250 := N_1
  have ht : (i 0).val / 2000 < cfg1.N := by rw [hN]; omega
  refine ⟨⟨(i 0).val / 2000, ht⟩, flush1_3 _, ?_⟩
  rw [mem_blk]
  obtain ⟨-, -, -, -, -, -, e6, e7⟩ := blocks ⟨(i 0).val / 2000, ht⟩
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 2 ≤ (i 1).val ∧ (i 1).val < win1_3.index ⟨(i 0).val / 2000, ht⟩ (1 : Fin 2) * 2 + 2
    rw [e7]; omega

/-- After the region the result array is the layer applied to every row of what the region found in its operands. -/
theorem final (c : Dev nD) : (dat1 V c).arrAt 3 cfg1.N = layer1 (V c main_v43) (V c main_v44) (V c main_arg4) :=
  (dat1 V c).arrAt_eq_of_cover 3 (layer1 (V c main_v43) (V c main_v44) (V c main_arg4)) (fun t _ => flushed_eq V c t) cover

end Cert.Gcn.Region1

end
-- ==== Proof.Region2.lean ====
/-
  The third region: the classifier `tanh (agg + b) · W + bc` on the aggregated features, 2000 rows at a time.

  Point `t` of the grid loads rows `2000·t … 2000·t + 1999` of the aggregate, the two bias rows and the whole weight
  matrix, and writes back the same rows of the output. The 250 blocks tile the result, so after the region the
  result array is the classifier applied to every row of what the region found.
-/
import proofs.«130917_j51616916964127_2_alg».proof.Proof.Gen.KernelIdeal.Frame
import proofs.«130917_j51616916964127_2_alg».proof.Proof.Layers
import Idealize.ShloMosaic.Lib.Pipeline.Value

set_option maxRecDepth 16384

noncomputable section

namespace Cert.Gcn.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window is on at point `t`: the row windows on block `t`, the biases and the weights on their one block. -/
theorem blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the aggregate's block at point `t` is row `2000·t + p` of the aggregate. -/
theorem rows_apply (c : Dev nD) (t : Fin cfg2.N) (p : Fin 2000) (h : Fin 2) (r : Fin 500000) (hr : r.val = t.val * 2000 + p.val) :
    (iblk2 V c 0 t : Vec Ideal S2000x2 .f32) (ix2 p h) = (V c main_v58 : S500000x2.Idx → EReal) (ix2 r h) := by
  obtain ⟨e0, e1, -⟩ := blocks t
  unfold iblk2
  rw [View.read_apply]
  show V c main_v58 _ = V c main_v58 _
  refine congrArg (V c main_v58) (funext fun a => Fin.ext ?_)
  match a with
  | ⟨0, _⟩ => show win2_0.index t (0 : Fin 2) * 2000 + 1 * p.val = r.val; rw [e0, hr]; omega
  | ⟨1, _⟩ => show win2_0.index t (1 : Fin 2) * 2 + 1 * h.val = h.val; rw [e1]; omega

/-- The first bias block at every point is the bias row. -/
theorem bias_apply (c : Dev nD) (t : Fin cfg2.N) (u : Fin 1) (h : Fin 2) :
    (iblk2 V c 1 t : Vec Ideal S1x2 .f32) (ix2 u h) = (V c main_v59 : S1x2.Idx → EReal) (ix2 u h) := by
  obtain ⟨-, -, e2, e3, -⟩ := blocks t
  unfold iblk2
  rw [View.read_apply]
  show V c main_v59 _ = V c main_v59 _
  refine congrArg (V c main_v59) (funext fun a => Fin.ext ?_)
  match a with
  | ⟨0, _⟩ => show win2_1.index t (0 : Fin 2) * 1 + 1 * u.val = u.val; rw [e2]; omega
  | ⟨1, _⟩ => show win2_1.index t (1 : Fin 2) * 2 + 1 * h.val = h.val; rw [e3]; omega

/-- The weight block at every point is the weight matrix. -/
theorem weights_apply (c : Dev nD) (t : Fin cfg2.N) (h : Fin 2) (q q' : Fin 2) (hq : q'.val = q.val) :
    (iblk2 V c 2 t : Vec Ideal S2x2 .f32) (ix2 h q) = (V c main_arg6 : S2x2.Idx → EReal) (ix2 h q') := by
  obtain ⟨-, -, -, -, e4, e5, -⟩ := blocks t
  unfold iblk2
  rw [View.read_apply]
  show V c main_arg6 _ = V c main_arg6 _
  refine congrArg (V c main_arg6) (funext fun a => Fin.ext ?_)
  match a with
  | ⟨0, _⟩ => show win2_2.index t (0 : Fin 2) * 2 + 1 * h.val = h.val; rw [e4]; omega
  | ⟨1, _⟩ => show win2_2.index t (1 : Fin 2) * 2 + 1 * q.val = q'.val; rw [e5, hq]; omega

/-- The second bias block at every point is the output's bias row. -/
theorem outbias_apply (c : Dev nD) (t : Fin cfg2.N) (u : Fin 1) (q q' : Fin 2) (hq : q'.val = q.val) :
    (iblk2 V c 3 t : Vec Ideal S1x2 .f32) (ix2 u q) = (V c main_v60 : S1x2.Idx → EReal) (ix2 u q') := by
  obtain ⟨-, -, -, -, -, -, e6, e7, -⟩ := blocks t
  unfold iblk2
  rw [View.read_apply]
  show V c main_v60 _ = V c main_v60 _
  refine congrArg (V c main_v60) (funext fun a => Fin.ext ?_)
  match a with
  | ⟨0, _⟩ => show win2_3.index t (0 : Fin 2) * 1 + 1 * u.val = u.val; rw [e6]; omega
  | ⟨1, _⟩ => show win2_3.index t (1 : Fin 2) * 2 + 1 * q.val = q'.val; rw [e7, hq]; omega

/-- What point `t` writes back is block `t` of the classifier applied to every row. -/
theorem flushed_eq (c : Dev nD) (t : Fin cfg2.N) :
    (dat2 V c).flushed 4 t = ((cfg2.win 4).blk t).view.read (Elt Ideal) (layer2 (V c main_v58) (V c main_v59) (V c main_arg6) (V c main_v60)) := by
  show (cfg2.win 4).cut (grid2.coords t) ((dat2 V c).after 4 t) = _
  rw [after2_4]
  unfold out2_4
  rw [View.canon_unit_zero hz]
  simp only [View.ld_unit_zero (S := S2000x2) hz, View.ld_unit_zero (S := S1x2) hz, View.ld_unit_zero (S := S2x2) hz]
  funext j
  obtain ⟨p, q, rfl⟩ : ∃ (p : Fin 2000) (q : Fin 2), j = ix2 p q := ⟨j 0, j 1, eq_ix2 j⟩
  obtain ⟨-, -, -, -, -, -, -, -, e8, e9⟩ := blocks t
  have hr : ((((cfg2.win 4).blk t).view.emb (ix2 p q)) 0).val = t.val * 2000 + p.val := by
    show win2_4.index t (0 : Fin 2) * 2000 + 1 * p.val = _; rw [e8]; omega
  have hc : ((((cfg2.win 4).blk t).view.emb (ix2 p q)) 1).val = q.val := by
    show win2_4.index t (1 : Fin 2) * 2 + 1 * q.val = _; rw [e9]; omega
  show k2_pay1 (iblk2 V c 0 t) (iblk2 V c 1 t) (iblk2 V c 2 t) (iblk2 V c 3 t) (ix2 p q)
    = act (V c main_v58) (V c main_v59) (V c main_arg6) ((((cfg2.win 4).blk t).view.emb (ix2 p q)) 0) ((((cfg2.win 4).blk t).view.emb (ix2 p q)) 1)
      + (V c main_v60 : S1x2.Idx → EReal) (ix2 (0 : Fin 1) ((((cfg2.win 4).blk t).view.emb (ix2 p q)) 1))
  refine (pay2_apply (iblk2 V c 0 t) (iblk2 V c 1 t) (iblk2 V c 2 t) (iblk2 V c 3 t) p q).trans ?_
  refine congrArg₂ (· + ·) ?_ (outbias_apply V c t 0 q _ hc)
  exact Finset.sum_congr rfl fun h _ => congrArg₂ (· * ·)
    (congrArg Ideal.tanh (congrArg₂ (· + ·) (rows_apply V c t p h _ hr) (bias_apply V c t 0 h)))
    (weights_apply V c t h q _ hc)

/-- An index of the result is in point `t`'s block iff its row is among the block's 2000 rows. -/
theorem mem_blk (t : Fin cfg2.N) (i : S500000x2.Idx) :
    i ∈ ((cfg2.win 4).blk t).view.set ↔ ∀ a : Fin 2, win2_4.index t a * S2000x2.size a ≤ (i a).val ∧ (i a).val < win2_4.index t a * S2000x2.size a + S2000x2.size a := by
  show i ∈ ((View.whole main_v61).slice (win2_4.rect t)).set ↔ _
  rw [View.set_slice_whole, Rect.mem_set_unit]
  exact Iff.rfl

/-- Every index of the result is in the block of the point its row falls in. -/
theorem cover (i : S500000x2.Idx) : ∃ t : Fin cfg2.N, (cfg2.win 4).flush t = true ∧ i ∈ ((cfg2.win 4).blk t).view.set := by
  have h0 : (i 0).val < 500000 := (i 0).isLt
  have h1 : (i 1).val < 2 := (i 1).isLt
  have hN : cfg2.N = 250 := N_2
  have ht : (i 0).val / 2000 < cfg2.N := by rw [hN]; omega
  refine ⟨⟨(i 0).val / 2000, ht⟩, flush2_4 _, ?_⟩
  rw [mem_blk]
  obtain ⟨-, -, -, -, -, -, -, -, e8, e9⟩ := blocks ⟨(i 0).val / 2000, ht⟩
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win2_4.index ⟨(i 0).val / 2000, ht⟩ (1 : Fin 2) * 2 ≤ (i 1).val ∧ (i 1).val < win2_4.index ⟨(i 0).val / 2000, ht⟩ (1 : Fin 2) * 2 + 2
    rw [e9]; omega

/-- After the region the result array is the classifier applied to every row of what the region found in its operands. -/
theorem final (c : Dev nD) : (dat2 V c).arrAt 4 cfg2.N = layer2 (V c main_v58) (V c main_v59) (V c main_arg6) (V c main_v60) :=
  (dat2 V c).arrAt_eq_of_cover 4 (layer2 (V c main_v58) (V c main_v59) (V c main_arg6) (V c main_v60)) (fun t _ => flushed_eq V c t) cover

end Cert.Gcn.Region2

end
-- ==== Proof.GraphK.lean ====
/-
  The graph side of the network as the idealized kernel's host operations compute it, and the contents of the
  buffers at each boundary between a stretch of host operations and a region.

  From the edge list the host builds the two end lists (each edge's source and target, then one self-loop per node),
  the in-degrees by a scatter-add of ones, their inverse square roots (zero where the degree is not positive), and the
  edge weights as the product of the two ends' inverse roots. An aggregation gathers the transformed features at the
  sources, scales each gathered row by its edge's weight, and scatter-adds the rows at the targets.
-/
import proofs.«130917_j51616916964127_2_alg».proof.Proof.Gen.KernelIdeal.Frame
import proofs.«130917_j51616916964127_2_alg».proof.Proof.Region0
import proofs.«130917_j51616916964127_2_alg».proof.Proof.Region1
import proofs.«130917_j51616916964127_2_alg».proof.Proof.Region2
import Idealize.ShloMosaic.Lib.StableHlo.Run
import Idealize.ShloMosaic.PureOps.Ideal

set_option maxRecDepth 16384

noncomputable section

namespace Cert.Gcn.Kernel

open Cert.KernelIdeal Cert.KernelIdeal.Gen Cert.Gcn
open Idealize.ShloMosaic Idealize.ShloMosaic.TcCoe Idealize.SL.Sem Idealize.ShloMosaic.StableHlo

local notation "𝕀" => Idealize.ShloMosaic.Ideal

/-- The edge list: row 0 the sources, row 1 the targets. -/
abbrev Edges := IVec S2x16000000 32
/-- One end of every edge, the self-loops appended. -/
abbrev Ends := IVec S16500000 32
/-- One float per edge. -/
abbrev PerEdge := FVec 𝕀 S16500000 .f32
/-- One float per node. -/
abbrev PerNode := FVec 𝕀 S500000 .f32

/-- The sources of the edges, then every node once (the self-loops). -/
def src (e : Edges) : Ends :=
  concatenate S16500000 0 [⟨S16000000, shapeCast S16000000 (extractStridedSlice S1x16000000 ![0, 0] e slices_S2x16000000_S1x16000000_0_0) shapeCasts_S1x16000000_S16000000⟩, ⟨S500000, iotaInDim S500000 32 0⟩] concatenates_S16000000_S500000_S16500000_d0

/-- The targets of the edges, then every node once. -/
def dst (e : Edges) : Ends :=
  concatenate S16500000 0 [⟨S16000000, shapeCast S16000000 (extractStridedSlice S1x16000000 ![1, 0] e slices_S2x16000000_S1x16000000_1_0) shapeCasts_S1x16000000_S16000000⟩, ⟨S500000, iotaInDim S500000 32 0⟩] concatenates_S16000000_S500000_S16500000_d0

/-- A list of ends as a column of start indices. -/
def col (v : Ends) : IVec S16500000x1 32 :=
  broadcastInDim S16500000x1 ![0] bcast_S16500000_S16500000x1_0 v

/-- A negative index counted from the end. -/
def wrap (v : Ends) : Ends :=
  select (cmpi .slt v (broadcastInDim S16500000 ![] bcast_S_S16500000 (constantI S_ 32 0#32)))
    (addi v (broadcastInDim S16500000 ![] bcast_S_S16500000 (constantI S_ 32 500000#32))) v

/-- The in-degree of every node, self-loop included. -/
def deg (e : Edges) : PerNode :=
  Host.scatterAdd scatter_S500000_S16500000x1_S16500000_n_0_0_1
    (broadcastInDim S500000 ![] bcast_S_S500000 (constant (F := 𝕀) S_ .f32 0x00000000#32))
    (col (dst e))
    (broadcastInDim S16500000 ![] bcast_S_S16500000 (constant (F := 𝕀) S_ .f32 0x3F800000#32))

/-- The edge weights from the table of inverse roots. -/
def weights (dinv : PerNode) (s d : Ends) : PerEdge :=
  mulf (F := 𝕀) (Host.gather gather_S500000_S16500000x1_S16500000_n_0_n_n_0_1_1 dinv (col (wrap s)))
    (Host.gather gather_S500000_S16500000x1_S16500000_n_0_n_n_0_1_1 dinv (col (wrap d)))

/-- The inverse square root of the degree where it is positive, zero elsewhere. -/
def dinv (e : Edges) : PerNode :=
  select (cmpf .ogt (deg e) (broadcastInDim S500000 ![] bcast_S_S500000 (constant (F := 𝕀) S_ .f32 0x00000000#32)))
    (Host.rsqrt (F := 𝕀) (deg e))
    (broadcastInDim S500000 ![] bcast_S_S500000 (id (constant (F := 𝕀) S_ .f32 0x00000000#32)))

/-- The edge weights of the graph. -/
def norm (e : Edges) : PerEdge := weights (dinv e) (src e) (dst e)

/-- Aggregation of four-column features over the edges. -/
def agg4 (s d : Ends) (w : PerEdge) (f : FVec 𝕀 S500000x4 .f32) : FVec 𝕀 S500000x4 .f32 :=
  Host.scatterAdd scatter_S500000x4_S16500000x1_S16500000x4_1_0_0_1
    (broadcastInDim S500000x4 ![] bcast_S_S500000x4 (constant (F := 𝕀) S_ .f32 0x00000000#32))
    (col d)
    (mulf (F := 𝕀) (broadcastInDim S16500000x4 ![0, 1] bcast_S16500000x1_S16500000x4_0_1 (broadcastInDim S16500000x1 ![0] bcast_S16500000_S16500000x1_0 w))
      (Host.gather gather_S500000x4_S16500000x1_S16500000x4_1_0_n_n_0_1_14 f (col (wrap s))))

/-- Aggregation of two-column features over the edges. -/
def agg2 (s d : Ends) (w : PerEdge) (f : FVec 𝕀 S500000x2 .f32) : FVec 𝕀 S500000x2 .f32 :=
  Host.scatterAdd scatter_S500000x2_S16500000x1_S16500000x2_1_0_0_1
    (broadcastInDim S500000x2 ![] bcast_S_S500000x2 (constant (F := 𝕀) S_ .f32 0x00000000#32))
    (col d)
    (mulf (F := 𝕀) (broadcastInDim S16500000x2 ![0, 1] bcast_S16500000x1_S16500000x2_0_1 (broadcastInDim S16500000x1 ![0] bcast_S16500000_S16500000x1_0 w))
      (Host.gather gather_S500000x2_S16500000x1_S16500000x2_1_0_n_n_0_1_12 f (col (wrap s))))

/-- The whole network: three dense layers with two aggregations over the graph between them. -/
def net (x0 : FVec 𝕀 S500000x2 .f32) (e : Edges) (x2 : FVec 𝕀 S2x4 .f32) (x3 : FVec 𝕀 S4 .f32) (x4 : FVec 𝕀 S4x2 .f32)
    (x5 : FVec 𝕀 S2 .f32) (x6 : FVec 𝕀 S2x2 .f32) (x7 : FVec 𝕀 S2 .f32) : FVec 𝕀 S500000x2 .f32 :=
  layer2 (agg2 (src e) (dst e) (norm e)
      (layer1 (agg4 (src e) (dst e) (norm e) (layer0 x0 x2)) (shapeCast S1x4 x3 shapeCasts_S4_S1x4) x4))
    (shapeCast S1x2 x5 shapeCasts_S2_S1x2) x6 (shapeCast S1x2 x7 shapeCasts_S2_S1x2)

/-- Reads a buffer after a literal line of host operations: each operation's result at its own buffer is its function's
    value, at any other buffer what was there before. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## One stretch of host operations at a time, from any contents `U` -/

theorem A_src (U : Valuation τ sig (Elt 𝕀)) : after hostOps0 U (Proc.devRef .tc main_v3) = src (U (Proc.devRef .tc main_arg1)) := by
  dsimp only [hostOps0]; read_results; rfl
theorem A_dst (U : Valuation τ sig (Elt 𝕀)) : after hostOps0 U (Proc.devRef .tc main_v6) = dst (U (Proc.devRef .tc main_arg1)) := by
  dsimp only [hostOps0]; read_results; rfl
theorem A_pos (U : Valuation τ sig (Elt 𝕀)) : after hostOps0 U (Proc.devRef .tc main_v12)
    = cmpf .ogt (deg (U (Proc.devRef .tc main_arg1))) (broadcastInDim S500000 ![] bcast_S_S500000 (constant (F := 𝕀) S_ .f32 0x00000000#32)) := by
  dsimp only [hostOps0]; read_results; rfl
theorem A_rsqrt (U : Valuation τ sig (Elt 𝕀)) : after hostOps0 U (Proc.devRef .tc main_v13) = Host.rsqrt (F := 𝕀) (deg (U (Proc.devRef .tc main_arg1))) := by
  dsimp only [hostOps0]; read_results; rfl
theorem A_zero (U : Valuation τ sig (Elt 𝕀)) : after hostOps0 U (Proc.devRef .tc main_cst_2) = constant (F := 𝕀) S_ .f32 0x00000000#32 := by
  dsimp only [hostOps0]; read_results
theorem A_main_arg0 (U : Valuation τ sig (Elt 𝕀)) : after hostOps0 U (Proc.devRef .tc main_arg0) = U (Proc.devRef .tc main_arg0) := by
  dsimp only [hostOps0]; after_results_simp
theorem A_main_arg2 (U : Valuation τ sig (Elt 𝕀)) : after hostOps0 U (Proc.devRef .tc main_arg2) = U (Proc.devRef .tc main_arg2) := by
  dsimp only [hostOps0]; after_results_simp
theorem A_main_arg3 (U : Valuation τ sig (Elt 𝕀)) : after hostOps0 U (Proc.devRef .tc main_arg3) = U (Proc.devRef .tc main_arg3) := by
  dsimp only [hostOps0]; after_results_simp
theorem A_main_arg4 (U : Valuation τ sig (Elt 𝕀)) : after hostOps0 U (Proc.devRef .tc main_arg4) = U (Proc.devRef .tc main_arg4) := by
  dsimp only [hostOps0]; after_results_simp
theorem A_main_arg5 (U : Valuation τ sig (Elt 𝕀)) : after hostOps0 U (Proc.devRef .tc main_arg5) = U (Proc.devRef .tc main_arg5) := by
  dsimp only [hostOps0]; after_results_simp
theorem A_main_arg6 (U : Valuation τ sig (Elt 𝕀)) : after hostOps0 U (Proc.devRef .tc main_arg6) = U (Proc.devRef .tc main_arg6) := by
  dsimp only [hostOps0]; after_results_simp
theorem A_main_arg7 (U : Valuation τ sig (Elt 𝕀)) : after hostOps0 U (Proc.devRef .tc main_arg7) = U (Proc.devRef .tc main_arg7) := by
  dsimp only [hostOps0]; after_results_simp
theorem B_main_v3 (U : Valuation τ sig (Elt 𝕀)) : after hostOps0_1 U (Proc.devRef .tc main_v3) = U (Proc.devRef .tc main_v3) := by
  dsimp only [hostOps0_1]; after_results_simp
theorem B_main_v6 (U : Valuation τ sig (Elt 𝕀)) : after hostOps0_1 U (Proc.devRef .tc main_v6) = U (Proc.devRef .tc main_v6) := by
  dsimp only [hostOps0_1]; after_results_simp
theorem B_main_arg0 (U : Valuation τ sig (Elt 𝕀)) : after hostOps0_1 U (Proc.devRef .tc main_arg0) = U (Proc.devRef .tc main_arg0) := by
  dsimp only [hostOps0_1]; after_results_simp
theorem B_main_arg2 (U : Valuation τ sig (Elt 𝕀)) : after hostOps0_1 U (Proc.devRef .tc main_arg2) = U (Proc.devRef .tc main_arg2) := by
  dsimp only [hostOps0_1]; after_results_simp
theorem B_main_arg3 (U : Valuation τ sig (Elt 𝕀)) : after hostOps0_1 U (Proc.devRef .tc main_arg3) = U (Proc.devRef .tc main_arg3) := by
  dsimp only [hostOps0_1]; after_results_simp
theorem B_main_arg4 (U : Valuation τ sig (Elt 𝕀)) : after hostOps0_1 U (Proc.devRef .tc main_arg4) = U (Proc.devRef .tc main_arg4) := by
  dsimp only [hostOps0_1]; after_results_simp
theorem B_main_arg5 (U : Valuation τ sig (Elt 𝕀)) : after hostOps0_1 U (Proc.devRef .tc main_arg5) = U (Proc.devRef .tc main_arg5) := by
  dsimp only [hostOps0_1]; after_results_simp
theorem B_main_arg6 (U : Valuation τ sig (Elt 𝕀)) : after hostOps0_1 U (Proc.devRef .tc main_arg6) = U (Proc.devRef .tc main_arg6) := by
  dsimp only [hostOps0_1]; after_results_simp
theorem B_main_arg7 (U : Valuation τ sig (Elt 𝕀)) : after hostOps0_1 U (Proc.devRef .tc main_arg7) = U (Proc.devRef .tc main_arg7) := by
  dsimp only [hostOps0_1]; after_results_simp
theorem C_main_v3 (U : Valuation τ sig (Elt 𝕀)) : after hostOps0_2 U (Proc.devRef .tc main_v3) = U (Proc.devRef .tc main_v3) := by
  dsimp only [hostOps0_2]; after_results_simp
theorem C_main_v6 (U : Valuation τ sig (Elt 𝕀)) : after hostOps0_2 U (Proc.devRef .tc main_v6) = U (Proc.devRef .tc main_v6) := by
  dsimp only [hostOps0_2]; after_results_simp
theorem C_main_arg0 (U : Valuation τ sig (Elt 𝕀)) : after hostOps0_2 U (Proc.devRef .tc main_arg0) = U (Proc.devRef .tc main_arg0) := by
  dsimp only [hostOps0_2]; after_results_simp
theorem C_main_arg2 (U : Valuation τ sig (Elt 𝕀)) : after hostOps0_2 U (Proc.devRef .tc main_arg2) = U (Proc.devRef .tc main_arg2) := by
  dsimp only [hostOps0_2]; after_results_simp
theorem C_main_arg3 (U : Valuation τ sig (Elt 𝕀)) : after hostOps0_2 U (Proc.devRef .tc main_arg3) = U (Proc.devRef .tc main_arg3) := by
  dsimp only [hostOps0_2]; after_results_simp
theorem C_main_arg4 (U : Valuation τ sig (Elt 𝕀)) : after hostOps0_2 U (Proc.devRef .tc main_arg4) = U (Proc.devRef .tc main_arg4) := by
  dsimp only [hostOps0_2]; after_results_simp
theorem C_main_arg5 (U : Valuation τ sig (Elt 𝕀)) : after hostOps0_2 U (Proc.devRef .tc main_arg5) = U (Proc.devRef .tc main_arg5) := by
  dsimp only [hostOps0_2]; after_results_simp
theorem C_main_arg6 (U : Valuation τ sig (Elt 𝕀)) : after hostOps0_2 U (Proc.devRef .tc main_arg6) = U (Proc.devRef .tc main_arg6) := by
  dsimp only [hostOps0_2]; after_results_simp
theorem C_main_arg7 (U : Valuation τ sig (Elt 𝕀)) : after hostOps0_2 U (Proc.devRef .tc main_arg7) = U (Proc.devRef .tc main_arg7) := by
  dsimp only [hostOps0_2]; after_results_simp

theorem B_dinv (U : Valuation τ sig (Elt 𝕀)) : after hostOps0_1 U (Proc.devRef .tc main_v14)
    = select (U (Proc.devRef .tc main_v12)) (U (Proc.devRef .tc main_v13)) (broadcastInDim S500000 ![] bcast_S_S500000 (id (U (Proc.devRef .tc main_cst_2)))) := by
  dsimp only [hostOps0_1]; after_results_simp; rfl

theorem C_norm (U : Valuation τ sig (Elt 𝕀)) : after hostOps0_2 U (Proc.devRef .tc main_v29)
    = weights (U (Proc.devRef .tc main_v14)) (U (Proc.devRef .tc main_v3)) (U (Proc.devRef .tc main_v6)) := by
  dsimp only [hostOps0_2]; read_results; rfl

theorem D_agg (U : Valuation τ sig (Elt 𝕀)) : after hostOps1 U (Proc.devRef .tc main_v43)
    = agg4 (U (Proc.devRef .tc main_v3)) (U (Proc.devRef .tc main_v6)) (U (Proc.devRef .tc main_v29)) (U (Proc.devRef .tc main_v30)) := by
  dsimp only [hostOps1]; read_results; rfl
theorem D_bias (U : Valuation τ sig (Elt 𝕀)) : after hostOps1 U (Proc.devRef .tc main_v44)
    = shapeCast S1x4 (U (Proc.devRef .tc main_arg3)) shapeCasts_S4_S1x4 := by
  dsimp only [hostOps1]; read_results; rfl
theorem D_main_v3 (U : Valuation τ sig (Elt 𝕀)) : after hostOps1 U (Proc.devRef .tc main_v3) = U (Proc.devRef .tc main_v3) := by
  dsimp only [hostOps1]; after_results_simp
theorem D_main_v6 (U : Valuation τ sig (Elt 𝕀)) : after hostOps1 U (Proc.devRef .tc main_v6) = U (Proc.devRef .tc main_v6) := by
  dsimp only [hostOps1]; after_results_simp
theorem D_main_v29 (U : Valuation τ sig (Elt 𝕀)) : after hostOps1 U (Proc.devRef .tc main_v29) = U (Proc.devRef .tc main_v29) := by
  dsimp only [hostOps1]; after_results_simp
theorem D_main_arg4 (U : Valuation τ sig (Elt 𝕀)) : after hostOps1 U (Proc.devRef .tc main_arg4) = U (Proc.devRef .tc main_arg4) := by
  dsimp only [hostOps1]; after_results_simp
theorem D_main_arg5 (U : Valuation τ sig (Elt 𝕀)) : after hostOps1 U (Proc.devRef .tc main_arg5) = U (Proc.devRef .tc main_arg5) := by
  dsimp only [hostOps1]; after_results_simp
theorem D_main_arg6 (U : Valuation τ sig (Elt 𝕀)) : after hostOps1 U (Proc.devRef .tc main_arg6) = U (Proc.devRef .tc main_arg6) := by
  dsimp only [hostOps1]; after_results_simp
theorem D_main_arg7 (U : Valuation τ sig (Elt 𝕀)) : after hostOps1 U (Proc.devRef .tc main_arg7) = U (Proc.devRef .tc main_arg7) := by
  dsimp only [hostOps1]; after_results_simp

theorem E_agg (U : Valuation τ sig (Elt 𝕀)) : after hostOps2 U (Proc.devRef .tc main_v58)
    = agg2 (U (Proc.devRef .tc main_v3)) (U (Proc.devRef .tc main_v6)) (U (Proc.devRef .tc main_v29)) (U (Proc.devRef .tc main_v45)) := by
  dsimp only [hostOps2]; read_results; rfl
theorem E_bias (U : Valuation τ sig (Elt 𝕀)) : after hostOps2 U (Proc.devRef .tc main_v59)
    = shapeCast S1x2 (U (Proc.devRef .tc main_arg5)) shapeCasts_S2_S1x2 := by
  dsimp only [hostOps2]; read_results; rfl
theorem E_outbias (U : Valuation τ sig (Elt 𝕀)) : after hostOps2 U (Proc.devRef .tc main_v60)
    = shapeCast S1x2 (U (Proc.devRef .tc main_arg7)) shapeCasts_S2_S1x2 := by
  dsimp only [hostOps2]; read_results; rfl
theorem E_main_arg6 (U : Valuation τ sig (Elt 𝕀)) : after hostOps2 U (Proc.devRef .tc main_arg6) = U (Proc.devRef .tc main_arg6) := by
  dsimp only [hostOps2]; after_results_simp

/-! ## The buffers at each boundary of the run, from the launch memory `m` -/

variable (m : (ℓ : Loc nD τ sig) → Buf (Elt 𝕀) ℓ) (ρ : Dev nD → PrngReg)

theorem W3_src (c : Dev nD) : W3 m ρ c (Proc.devRef .tc main_v3) = src (m ((c : Thread nD τ).loc main_arg1)) := by
  show after hostOps0_2 (after hostOps0_1 (after hostOps0 (W0 m ρ c))) (Proc.devRef .tc main_v3) = _
  rw [C_main_v3, B_main_v3, A_src]
theorem W3_dst (c : Dev nD) : W3 m ρ c (Proc.devRef .tc main_v6) = dst (m ((c : Thread nD τ).loc main_arg1)) := by
  show after hostOps0_2 (after hostOps0_1 (after hostOps0 (W0 m ρ c))) (Proc.devRef .tc main_v6) = _
  rw [C_main_v6, B_main_v6, A_dst]
theorem W3_norm (c : Dev nD) : W3 m ρ c (Proc.devRef .tc main_v29) = norm (m ((c : Thread nD τ).loc main_arg1)) := by
  show after hostOps0_2 (after hostOps0_1 (after hostOps0 (W0 m ρ c))) (Proc.devRef .tc main_v29) = _
  rw [C_norm, B_dinv, B_main_v3, B_main_v6, A_pos, A_rsqrt, A_zero, A_src, A_dst]; rfl
theorem W3_main_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  rw [C_main_arg0, B_main_arg0, A_main_arg0]
theorem W3_main_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  rw [C_main_arg2, B_main_arg2, A_main_arg2]
theorem W3_main_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  rw [C_main_arg3, B_main_arg3, A_main_arg3]
theorem W3_main_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  rw [C_main_arg4, B_main_arg4, A_main_arg4]
theorem W3_main_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  rw [C_main_arg5, B_main_arg5, A_main_arg5]
theorem W3_main_arg6 (c : Dev nD) : W3 m ρ c (Proc.devRef .tc main_arg6) = m ((c : Thread nD τ).loc main_arg6) := by
  show after hostOps0_2 (after hostOps0_1 (after hostOps0 (W0 m ρ c))) (Proc.devRef .tc main_arg6) = _
  rw [C_main_arg6, B_main_arg6, A_main_arg6]
theorem W3_main_arg7 (c : Dev nD) : W3 m ρ c (Proc.devRef .tc main_arg7) = m ((c : Thread nD τ).loc main_arg7) := by
  show after hostOps0_2 (after hostOps0_1 (after hostOps0 (W0 m ρ c))) (Proc.devRef .tc main_arg7) = _
  rw [C_main_arg7, B_main_arg7, A_main_arg7]

/-- After the first region: the features times the first weights. -/
theorem W4_out (c : Dev nD) : W4 m ρ c (Proc.devRef .tc main_v30) = layer0 (m ((c : Thread nD τ).loc main_arg0)) (m ((c : Thread nD τ).loc main_arg2)) :=
  (W4_arr m ρ c 2).trans ((Region0.final (V3 m ρ) c).trans
    (congrArg₂ layer0 (W3_main_arg0 m ρ c) (W3_main_arg2 m ρ c)))
theorem W4_main_v3 (c : Dev nD) : W4 m ρ c (Proc.devRef .tc main_v3) = W3 m ρ c (Proc.devRef .tc main_v3) := W4_of_ne m ρ c main_v3 (by decide)
theorem W4_main_v6 (c : Dev nD) : W4 m ρ c (Proc.devRef .tc main_v6) = W3 m ρ c (Proc.devRef .tc main_v6) := W4_of_ne m ρ c main_v6 (by decide)
theorem W4_main_v29 (c : Dev nD) : W4 m ρ c (Proc.devRef .tc main_v29) = W3 m ρ c (Proc.devRef .tc main_v29) := W4_of_ne m ρ c main_v29 (by decide)
theorem W4_main_arg3 (c : Dev nD) : W4 m ρ c (Proc.devRef .tc main_arg3) = W3 m ρ c (Proc.devRef .tc main_arg3) := W4_of_ne m ρ c main_arg3 (by decide)
theorem W4_main_arg4 (c : Dev nD) : W4 m ρ c (Proc.devRef .tc main_arg4) = W3 m ρ c (Proc.devRef .tc main_arg4) := W4_of_ne m ρ c main_arg4 (by decide)
theorem W4_main_arg5 (c : Dev nD) : W4 m ρ c (Proc.devRef .tc main_arg5) = W3 m ρ c (Proc.devRef .tc main_arg5) := W4_of_ne m ρ c main_arg5 (by decide)
theorem W4_main_arg6 (c : Dev nD) : W4 m ρ c (Proc.devRef .tc main_arg6) = W3 m ρ c (Proc.devRef .tc main_arg6) := W4_of_ne m ρ c main_arg6 (by decide)
theorem W4_main_arg7 (c : Dev nD) : W4 m ρ c (Proc.devRef .tc main_arg7) = W3 m ρ c (Proc.devRef .tc main_arg7) := W4_of_ne m ρ c main_arg7 (by decide)

/-- After the second stretch: the first aggregate, the bias as a row, and what the stretch does not write. -/
theorem W5_agg (c : Dev nD) : W5 m ρ c (Proc.devRef .tc main_v43) = (agg4 (src (m ((c : Thread nD τ).loc main_arg1))) (dst (m ((c : Thread nD τ).loc main_arg1))) (norm (m ((c : Thread nD τ).loc main_arg1))) (layer0 (m ((c : Thread nD τ).loc main_arg0)) (m ((c : Thread nD τ).loc main_arg2)))) := by
  show after hostOps1 (W4 m ρ c) (Proc.devRef .tc main_v43) = _
  rw [D_agg, W4_main_v3, W4_main_v6, W4_main_v29, W4_out, W3_src, W3_dst, W3_norm]
theorem W5_bias (c : Dev nD) : W5 m ρ c (Proc.devRef .tc main_v44) = (shapeCast S1x4 (m ((c : Thread nD τ).loc main_arg3)) shapeCasts_S4_S1x4) := by
  show after hostOps1 (W4 m ρ c) (Proc.devRef .tc main_v44) = _
  rw [D_bias, W4_main_arg3, W3_main_arg3]
theorem W5_main_v3 (c : Dev nD) : W5 m ρ c (Proc.devRef .tc main_v3) = (src (m ((c : Thread nD τ).loc main_arg1))) := by
  show after hostOps1 (W4 m ρ c) (Proc.devRef .tc main_v3) = _
  rw [D_main_v3, W4_main_v3, W3_src]
theorem W5_main_v6 (c : Dev nD) : W5 m ρ c (Proc.devRef .tc main_v6) = (dst (m ((c : Thread nD τ).loc main_arg1))) := by
  show after hostOps1 (W4 m ρ c) (Proc.devRef .tc main_v6) = _
  rw [D_main_v6, W4_main_v6, W3_dst]
theorem W5_main_v29 (c : Dev nD) : W5 m ρ c (Proc.devRef .tc main_v29) = (norm (m ((c : Thread nD τ).loc main_arg1))) := by
  show after hostOps1 (W4 m ρ c) (Proc.devRef .tc main_v29) = _
  rw [D_main_v29, W4_main_v29, W3_norm]
theorem W5_main_arg4 (c : Dev nD) : W5 m ρ c (Proc.devRef .tc main_arg4) = (m ((c : Thread nD τ).loc main_arg4)) := by
  show after hostOps1 (W4 m ρ c) (Proc.devRef .tc main_arg4) = _
  rw [D_main_arg4, W4_main_arg4, W3_main_arg4]
theorem W5_main_arg5 (c : Dev nD) : W5 m ρ c (Proc.devRef .tc main_arg5) = (m ((c : Thread nD τ).loc main_arg5)) := by
  show after hostOps1 (W4 m ρ c) (Proc.devRef .tc main_arg5) = _
  rw [D_main_arg5, W4_main_arg5, W3_main_arg5]
theorem W5_main_arg6 (c : Dev nD) : W5 m ρ c (Proc.devRef .tc main_arg6) = (m ((c : Thread nD τ).loc main_arg6)) := by
  show after hostOps1 (W4 m ρ c) (Proc.devRef .tc main_arg6) = _
  rw [D_main_arg6, W4_main_arg6, W3_main_arg6]
theorem W5_main_arg7 (c : Dev nD) : W5 m ρ c (Proc.devRef .tc main_arg7) = (m ((c : Thread nD τ).loc main_arg7)) := by
  show after hostOps1 (W4 m ρ c) (Proc.devRef .tc main_arg7) = _
  rw [D_main_arg7, W4_main_arg7, W3_main_arg7]

/-- After the second region: the second layer's transform of the first aggregate. -/
theorem W6_out (c : Dev nD) : W6 m ρ c (Proc.devRef .tc main_v45) = (layer1 (agg4 (src (m ((c : Thread nD τ).loc main_arg1))) (dst (m ((c : Thread nD τ).loc main_arg1))) (norm (m ((c : Thread nD τ).loc main_arg1))) (layer0 (m ((c : Thread nD τ).loc main_arg0)) (m ((c : Thread nD τ).loc main_arg2)))) (shapeCast S1x4 (m ((c : Thread nD τ).loc main_arg3)) shapeCasts_S4_S1x4) (m ((c : Thread nD τ).loc main_arg4))) := by
  refine (W6_arr m ρ c 3).trans ((Region1.final (V5 m ρ) c).trans ?_)
  rw [show V5 m ρ c main_v43 = _ from W5_agg m ρ c, show V5 m ρ c main_v44 = _ from W5_bias m ρ c,
    show V5 m ρ c main_arg4 = _ from W5_main_arg4 m ρ c]
theorem W6_main_v3 (c : Dev nD) : W6 m ρ c (Proc.devRef .tc main_v3) = W5 m ρ c (Proc.devRef .tc main_v3) := W6_of_ne m ρ c main_v3 (by decide)
theorem W6_main_v6 (c : Dev nD) : W6 m ρ c (Proc.devRef .tc main_v6) = W5 m ρ c (Proc.devRef .tc main_v6) := W6_of_ne m ρ c main_v6 (by decide)
theorem W6_main_v29 (c : Dev nD) : W6 m ρ c (Proc.devRef .tc main_v29) = W5 m ρ c (Proc.devRef .tc main_v29) := W6_of_ne m ρ c main_v29 (by decide)
theorem W6_main_arg5 (c : Dev nD) : W6 m ρ c (Proc.devRef .tc main_arg5) = W5 m ρ c (Proc.devRef .tc main_arg5) := W6_of_ne m ρ c main_arg5 (by decide)
theorem W6_main_arg6 (c : Dev nD) : W6 m ρ c (Proc.devRef .tc main_arg6) = W5 m ρ c (Proc.devRef .tc main_arg6) := W6_of_ne m ρ c main_arg6 (by decide)
theorem W6_main_arg7 (c : Dev nD) : W6 m ρ c (Proc.devRef .tc main_arg7) = W5 m ρ c (Proc.devRef .tc main_arg7) := W6_of_ne m ρ c main_arg7 (by decide)

/-- After the third stretch: the second aggregate and the two bias rows. -/
theorem W7_agg (c : Dev nD) : W7 m ρ c (Proc.devRef .tc main_v58) = (agg2 (src (m ((c : Thread nD τ).loc main_arg1))) (dst (m ((c : Thread nD τ).loc main_arg1))) (norm (m ((c : Thread nD τ).loc main_arg1))) (layer1 (agg4 (src (m ((c : Thread nD τ).loc main_arg1))) (dst (m ((c : Thread nD τ).loc main_arg1))) (norm (m ((c : Thread nD τ).loc main_arg1))) (layer0 (m ((c : Thread nD τ).loc main_arg0)) (m ((c : Thread nD τ).loc main_arg2)))) (shapeCast S1x4 (m ((c : Thread nD τ).loc main_arg3)) shapeCasts_S4_S1x4) (m ((c : Thread nD τ).loc main_arg4)))) := by
  show after hostOps2 (W6 m ρ c) (Proc.devRef .tc main_v58) = _
  rw [E_agg, W6_main_v3, W6_main_v6, W6_main_v29, W6_out, W5_main_v3, W5_main_v6, W5_main_v29]
theorem W7_bias (c : Dev nD) : W7 m ρ c (Proc.devRef .tc main_v59) = (shapeCast S1x2 (m ((c : Thread nD τ).loc main_arg5)) shapeCasts_S2_S1x2) := by
  show after hostOps2 (W6 m ρ c) (Proc.devRef .tc main_v59) = _
  rw [E_bias, W6_main_arg5, W5_main_arg5]
theorem W7_outbias (c : Dev nD) : W7 m ρ c (Proc.devRef .tc main_v60) = (shapeCast S1x2 (m ((c : Thread nD τ).loc main_arg7)) shapeCasts_S2_S1x2) := by
  show after hostOps2 (W6 m ρ c) (Proc.devRef .tc main_v60) = _
  rw [E_outbias, W6_main_arg7, W5_main_arg7]
theorem W7_weights (c : Dev nD) : W7 m ρ c (Proc.devRef .tc main_arg6) = (m ((c : Thread nD τ).loc main_arg6)) := by
  show after hostOps2 (W6 m ρ c) (Proc.devRef .tc main_arg6) = _
  rw [E_main_arg6, W6_main_arg6, W5_main_arg6]

/-- THE RESULT: after the last region the result array is the network of the launch contents of the arguments. -/
theorem result (c : Dev nD) : W8 m ρ c (Proc.devRef .tc main_v61)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ((Region2.final (V7 m ρ) c).trans ?_)
  rw [show V7 m ρ c main_v58 = _ from W7_agg m ρ c, show V7 m ρ c main_v59 = _ from W7_bias m ρ c,
    show V7 m ρ c main_arg6 = _ from W7_weights m ρ c, show V7 m ρ c main_v60 = _ from W7_outbias m ρ c]
  rfl

end Cert.Gcn.Kernel

end
-- ==== Proof.RefValue.lean ====
/-
  The reference, one stretch of its host operations at a time, and its result as the same network as the kernel's.

  The reference computes the graph's edge weights twice (once per layer), each time by the same operations of the edge
  list, and each dense layer as one whole matrix product. Read stretch by stretch, its result buffer is: the classifier
  of the second aggregate of the second layer of the first aggregate of `x · W₁` — the network `Kernel.net` of the
  arguments, once each whole product is read entry by entry as the sum over the contracted coordinate and the biases,
  broadcast in two steps, are read as rows.
-/
import proofs.«130917_j51616916964127_2_alg».proof.Proof.RefOps
import proofs.«130917_j51616916964127_2_alg».proof.Proof.GraphK
import proofs.«130917_j51616916964127_2_alg».proof.Proof.Layers
import proofs.«130917_j51616916964127_2_alg».proof.Proof.LibMatProduct
import Idealize.ShloMosaic.Lib.ValueLayout
import Idealize.ShloMosaic.PureOps.Ideal.Laws

set_option maxRecDepth 16384

noncomputable section

namespace Cert.Gcn.Ref

open Cert.ReferenceIdeal Cert.ReferenceIdeal.Gen Cert.ReferenceIdeal.ValueP Cert.Gcn
open Idealize.ShloMosaic Idealize.ShloMosaic.TcCoe Idealize.ShloMosaic.ValueIdx Idealize.SL.Sem Idealize.ShloMosaic.StableHlo

local notation "𝕀" => Idealize.ShloMosaic.Ideal

/-! ## The dense layers as the reference spells them -/

/-- `x · W₁` as one whole product. -/
def dense0 (x0 : FVec 𝕀 S500000x2 .f32) (x2 : FVec 𝕀 S2x4 .f32) : FVec 𝕀 S500000x4 .f32 :=
  Host.dotGeneral dot_S500000x2_S2x4_S500000x4_1_0_0_1_n_n none x0 x2

/-- `tanh (a + b)`, the bias broadcast to a row and then down the rows. -/
def hidden4 (a : FVec 𝕀 S500000x4 .f32) (x3 : FVec 𝕀 S4 .f32) : FVec 𝕀 S500000x4 .f32 :=
  Host.tanh (F := 𝕀) (addf a (broadcastInDim S500000x4 ![0, 1] bcast_S1x4_S500000x4_0_1 (broadcastInDim S1x4 ![1] bcast_S4_S1x4_1 x3)))

/-- A hidden layer times `W₂` as one whole product. -/
def dot1 (h : FVec 𝕀 S500000x4 .f32) (x4 : FVec 𝕀 S4x2 .f32) : FVec 𝕀 S500000x2 .f32 :=
  Host.dotGeneral dot_S500000x4_S4x2_S500000x2_1_0_0_1_n_n none h x4

/-- `tanh (a + b) · W₂` as one whole product. -/
def dense1 (a : FVec 𝕀 S500000x4 .f32) (x3 : FVec 𝕀 S4 .f32) (x4 : FVec 𝕀 S4x2 .f32) : FVec 𝕀 S500000x2 .f32 :=
  dot1 (hidden4 a x3) x4

/-- `tanh (a + b) · W + bc` as one whole product and a broadcast bias. -/
def dense2 (a : FVec 𝕀 S500000x2 .f32) (x5 : FVec 𝕀 S2 .f32) (x6 : FVec 𝕀 S2x2 .f32) (x7 : FVec 𝕀 S2 .f32) : FVec 𝕀 S500000x2 .f32 :=
  addf (F := 𝕀) (Host.dotGeneral dot_S500000x2_S2x2_S500000x2_1_0_0_1_n_n none
      (Host.tanh (F := 𝕀) (addf a (broadcastInDim S500000x2 ![0, 1] bcast_S1x2_S500000x2_0_1 (broadcastInDim S1x2 ![1] bcast_S2_S1x2_1 x5)))) x6) (broadcastInDim S500000x2 ![0, 1] bcast_S1x2_S500000x2_0_1 (broadcastInDim S1x2 ![1] bcast_S2_S1x2_1 x7))

/-! ## One stretch at a time, from any contents `U` -/

theorem S0_src (U : Valuation τ sig (Elt 𝕀)) : after ops0 U (Proc.devRef .tc main_v3) = Kernel.src (U (Proc.devRef .tc main_arg1)) := by
  dsimp only [ops0]; read_results; rfl
theorem S0_dst (U : Valuation τ sig (Elt 𝕀)) : after ops0 U (Proc.devRef .tc main_v6) = Kernel.dst (U (Proc.devRef .tc main_arg1)) := by
  dsimp only [ops0]; read_results; rfl
theorem S0_pos (U : Valuation τ sig (Elt 𝕀)) : after ops0 U (Proc.devRef .tc main_v12)
    = cmpf .ogt (Kernel.deg (U (Proc.devRef .tc main_arg1))) (broadcastInDim S500000 ![] bcast_S_S500000 (constant (F := 𝕀) S_ .f32 0x00000000#32)) := by
  dsimp only [ops0]; read_results; rfl
theorem S0_rsqrt (U : Valuation τ sig (Elt 𝕀)) : after ops0 U (Proc.devRef .tc main_v13) = Host.rsqrt (F := 𝕀) (Kernel.deg (U (Proc.devRef .tc main_arg1))) := by
  dsimp only [ops0]; read_results; rfl
theorem S0_zero (U : Valuation τ sig (Elt 𝕀)) : after ops0 U (Proc.devRef .tc main_cst_2) = constant (F := 𝕀) S_ .f32 0x00000000#32 := by
  dsimp only [ops0]; read_results
theorem S1_dinv (U : Valuation τ sig (Elt 𝕀)) : after ops1 U (Proc.devRef .tc main_v14)
    = select (U (Proc.devRef .tc main_v12)) (U (Proc.devRef .tc main_v13)) (broadcastInDim S500000 ![] bcast_S_S500000 (id (U (Proc.devRef .tc main_cst_2)))) := by
  dsimp only [ops1]; after_results_simp; rfl
theorem S2_norm (U : Valuation τ sig (Elt 𝕀)) : after ops2 U (Proc.devRef .tc main_v29)
    = Kernel.weights (U (Proc.devRef .tc main_v14)) (U (Proc.devRef .tc main_v3)) (U (Proc.devRef .tc main_v6)) := by
  dsimp only [ops2]; read_results; rfl
theorem S3_agg (U : Valuation τ sig (Elt 𝕀)) : after ops3 U (Proc.devRef .tc main_v43)
    = Kernel.agg4 (U (Proc.devRef .tc main_v3)) (U (Proc.devRef .tc main_v6)) (U (Proc.devRef .tc main_v29)) (dense0 (U (Proc.devRef .tc main_arg0)) (U (Proc.devRef .tc main_arg2))) := by
  dsimp only [ops3]; read_results; rfl
theorem S4_hidden (U : Valuation τ sig (Elt 𝕀)) : after ops4 U (Proc.devRef .tc main_v47) = hidden4 (U (Proc.devRef .tc main_v43)) (U (Proc.devRef .tc main_arg3)) := by
  dsimp only [ops4]; read_results; rfl
theorem S5_src (U : Valuation τ sig (Elt 𝕀)) : after ops5 U (Proc.devRef .tc main_v51) = Kernel.src (U (Proc.devRef .tc main_arg1)) := by
  dsimp only [ops5]; read_results; rfl
theorem S5_dst (U : Valuation τ sig (Elt 𝕀)) : after ops5 U (Proc.devRef .tc main_v54) = Kernel.dst (U (Proc.devRef .tc main_arg1)) := by
  dsimp only [ops5]; read_results; rfl
theorem S5_pos (U : Valuation τ sig (Elt 𝕀)) : after ops5 U (Proc.devRef .tc main_v60)
    = cmpf .ogt (Kernel.deg (U (Proc.devRef .tc main_arg1))) (broadcastInDim S500000 ![] bcast_S_S500000 (constant (F := 𝕀) S_ .f32 0x00000000#32)) := by
  dsimp only [ops5]; read_results; rfl
theorem S5_rsqrt (U : Valuation τ sig (Elt 𝕀)) : after ops5 U (Proc.devRef .tc main_v61) = Host.rsqrt (F := 𝕀) (Kernel.deg (U (Proc.devRef .tc main_arg1))) := by
  dsimp only [ops5]; read_results; rfl
theorem S5_zero (U : Valuation τ sig (Elt 𝕀)) : after ops5 U (Proc.devRef .tc main_cst_12) = constant (F := 𝕀) S_ .f32 0x00000000#32 := by
  dsimp only [ops5]; read_results
theorem S6_dinv (U : Valuation τ sig (Elt 𝕀)) : after ops6 U (Proc.devRef .tc main_v62)
    = select (U (Proc.devRef .tc main_v60)) (U (Proc.devRef .tc main_v61)) (broadcastInDim S500000 ![] bcast_S_S500000 (id (U (Proc.devRef .tc main_cst_12)))) := by
  dsimp only [ops6]; after_results_simp; rfl
theorem S7_norm (U : Valuation τ sig (Elt 𝕀)) : after ops7 U (Proc.devRef .tc main_v77)
    = Kernel.weights (U (Proc.devRef .tc main_v62)) (U (Proc.devRef .tc main_v51)) (U (Proc.devRef .tc main_v54)) := by
  dsimp only [ops7]; read_results; rfl
theorem S8_agg (U : Valuation τ sig (Elt 𝕀)) : after ops8 U (Proc.devRef .tc main_v91)
    = Kernel.agg2 (U (Proc.devRef .tc main_v51)) (U (Proc.devRef .tc main_v54)) (U (Proc.devRef .tc main_v77))
        (dot1 (U (Proc.devRef .tc main_v47)) (U (Proc.devRef .tc main_arg4))) := by
  dsimp only [ops8]; read_results; rfl
theorem S9_out (U : Valuation τ sig (Elt 𝕀)) : after ops9 U (Proc.devRef .tc main_v99)
    = dense2 (U (Proc.devRef .tc main_v91)) (U (Proc.devRef .tc main_arg5)) (U (Proc.devRef .tc main_arg6)) (U (Proc.devRef .tc main_arg7)) := by
  dsimp only [ops9]; read_results; rfl

theorem K0_main_arg0 (U : Valuation τ sig (Elt 𝕀)) : after ops0 U (Proc.devRef .tc main_arg0) = U (Proc.devRef .tc main_arg0) := by
  dsimp only [ops0]; after_results_simp
theorem K0_main_arg1 (U : Valuation τ sig (Elt 𝕀)) : after ops0 U (Proc.devRef .tc main_arg1) = U (Proc.devRef .tc main_arg1) := by
  dsimp only [ops0]; after_results_simp
theorem K0_main_arg2 (U : Valuation τ sig (Elt 𝕀)) : after ops0 U (Proc.devRef .tc main_arg2) = U (Proc.devRef .tc main_arg2) := by
  dsimp only [ops0]; after_results_simp
theorem K0_main_arg3 (U : Valuation τ sig (Elt 𝕀)) : after ops0 U (Proc.devRef .tc main_arg3) = U (Proc.devRef .tc main_arg3) := by
  dsimp only [ops0]; after_results_simp
theorem K0_main_arg4 (U : Valuation τ sig (Elt 𝕀)) : after ops0 U (Proc.devRef .tc main_arg4) = U (Proc.devRef .tc main_arg4) := by
  dsimp only [ops0]; after_results_simp
theorem K0_main_arg5 (U : Valuation τ sig (Elt 𝕀)) : after ops0 U (Proc.devRef .tc main_arg5) = U (Proc.devRef .tc main_arg5) := by
  dsimp only [ops0]; after_results_simp
theorem K0_main_arg6 (U : Valuation τ sig (Elt 𝕀)) : after ops0 U (Proc.devRef .tc main_arg6) = U (Proc.devRef .tc main_arg6) := by
  dsimp only [ops0]; after_results_simp
theorem K0_main_arg7 (U : Valuation τ sig (Elt 𝕀)) : after ops0 U (Proc.devRef .tc main_arg7) = U (Proc.devRef .tc main_arg7) := by
  dsimp only [ops0]; after_results_simp
theorem K1_main_v3 (U : Valuation τ sig (Elt 𝕀)) : after ops1 U (Proc.devRef .tc main_v3) = U (Proc.devRef .tc main_v3) := by
  dsimp only [ops1]; after_results_simp
theorem K1_main_v6 (U : Valuation τ sig (Elt 𝕀)) : after ops1 U (Proc.devRef .tc main_v6) = U (Proc.devRef .tc main_v6) := by
  dsimp only [ops1]; after_results_simp
theorem K1_main_arg0 (U : Valuation τ sig (Elt 𝕀)) : after ops1 U (Proc.devRef .tc main_arg0) = U (Proc.devRef .tc main_arg0) := by
  dsimp only [ops1]; after_results_simp
theorem K1_main_arg1 (U : Valuation τ sig (Elt 𝕀)) : after ops1 U (Proc.devRef .tc main_arg1) = U (Proc.devRef .tc main_arg1) := by
  dsimp only [ops1]; after_results_simp
theorem K1_main_arg2 (U : Valuation τ sig (Elt 𝕀)) : after ops1 U (Proc.devRef .tc main_arg2) = U (Proc.devRef .tc main_arg2) := by
  dsimp only [ops1]; after_results_simp
theorem K1_main_arg3 (U : Valuation τ sig (Elt 𝕀)) : after ops1 U (Proc.devRef .tc main_arg3) = U (Proc.devRef .tc main_arg3) := by
  dsimp only [ops1]; after_results_simp
theorem K1_main_arg4 (U : Valuation τ sig (Elt 𝕀)) : after ops1 U (Proc.devRef .tc main_arg4) = U (Proc.devRef .tc main_arg4) := by
  dsimp only [ops1]; after_results_simp
theorem K1_main_arg5 (U : Valuation τ sig (Elt 𝕀)) : after ops1 U (Proc.devRef .tc main_arg5) = U (Proc.devRef .tc main_arg5) := by
  dsimp only [ops1]; after_results_simp
theorem K1_main_arg6 (U : Valuation τ sig (Elt 𝕀)) : after ops1 U (Proc.devRef .tc main_arg6) = U (Proc.devRef .tc main_arg6) := by
  dsimp only [ops1]; after_results_simp
theorem K1_main_arg7 (U : Valuation τ sig (Elt 𝕀)) : after ops1 U (Proc.devRef .tc main_arg7) = U (Proc.devRef .tc main_arg7) := by
  dsimp only [ops1]; after_results_simp
theorem K2_main_v3 (U : Valuation τ sig (Elt 𝕀)) : after ops2 U (Proc.devRef .tc main_v3) = U (Proc.devRef .tc main_v3) := by
  dsimp only [ops2]; after_results_simp
theorem K2_main_v6 (U : Valuation τ sig (Elt 𝕀)) : after ops2 U (Proc.devRef .tc main_v6) = U (Proc.devRef .tc main_v6) := by
  dsimp only [ops2]; after_results_simp
theorem K2_main_arg0 (U : Valuation τ sig (Elt 𝕀)) : after ops2 U (Proc.devRef .tc main_arg0) = U (Proc.devRef .tc main_arg0) := by
  dsimp only [ops2]; after_results_simp
theorem K2_main_arg1 (U : Valuation τ sig (Elt 𝕀)) : after ops2 U (Proc.devRef .tc main_arg1) = U (Proc.devRef .tc main_arg1) := by
  dsimp only [ops2]; after_results_simp
theorem K2_main_arg2 (U : Valuation τ sig (Elt 𝕀)) : after ops2 U (Proc.devRef .tc main_arg2) = U (Proc.devRef .tc main_arg2) := by
  dsimp only [ops2]; after_results_simp
theorem K2_main_arg3 (U : Valuation τ sig (Elt 𝕀)) : after ops2 U (Proc.devRef .tc main_arg3) = U (Proc.devRef .tc main_arg3) := by
  dsimp only [ops2]; after_results_simp
theorem K2_main_arg4 (U : Valuation τ sig (Elt 𝕀)) : after ops2 U (Proc.devRef .tc main_arg4) = U (Proc.devRef .tc main_arg4) := by
  dsimp only [ops2]; after_results_simp
theorem K2_main_arg5 (U : Valuation τ sig (Elt 𝕀)) : after ops2 U (Proc.devRef .tc main_arg5) = U (Proc.devRef .tc main_arg5) := by
  dsimp only [ops2]; after_results_simp
theorem K2_main_arg6 (U : Valuation τ sig (Elt 𝕀)) : after ops2 U (Proc.devRef .tc main_arg6) = U (Proc.devRef .tc main_arg6) := by
  dsimp only [ops2]; after_results_simp
theorem K2_main_arg7 (U : Valuation τ sig (Elt 𝕀)) : after ops2 U (Proc.devRef .tc main_arg7) = U (Proc.devRef .tc main_arg7) := by
  dsimp only [ops2]; after_results_simp
theorem K3_main_arg1 (U : Valuation τ sig (Elt 𝕀)) : after ops3 U (Proc.devRef .tc main_arg1) = U (Proc.devRef .tc main_arg1) := by
  dsimp only [ops3]; after_results_simp
theorem K3_main_arg3 (U : Valuation τ sig (Elt 𝕀)) : after ops3 U (Proc.devRef .tc main_arg3) = U (Proc.devRef .tc main_arg3) := by
  dsimp only [ops3]; after_results_simp
theorem K3_main_arg4 (U : Valuation τ sig (Elt 𝕀)) : after ops3 U (Proc.devRef .tc main_arg4) = U (Proc.devRef .tc main_arg4) := by
  dsimp only [ops3]; after_results_simp
theorem K3_main_arg5 (U : Valuation τ sig (Elt 𝕀)) : after ops3 U (Proc.devRef .tc main_arg5) = U (Proc.devRef .tc main_arg5) := by
  dsimp only [ops3]; after_results_simp
theorem K3_main_arg6 (U : Valuation τ sig (Elt 𝕀)) : after ops3 U (Proc.devRef .tc main_arg6) = U (Proc.devRef .tc main_arg6) := by
  dsimp only [ops3]; after_results_simp
theorem K3_main_arg7 (U : Valuation τ sig (Elt 𝕀)) : after ops3 U (Proc.devRef .tc main_arg7) = U (Proc.devRef .tc main_arg7) := by
  dsimp only [ops3]; after_results_simp
theorem K4_main_arg1 (U : Valuation τ sig (Elt 𝕀)) : after ops4 U (Proc.devRef .tc main_arg1) = U (Proc.devRef .tc main_arg1) := by
  dsimp only [ops4]; after_results_simp
theorem K4_main_arg4 (U : Valuation τ sig (Elt 𝕀)) : after ops4 U (Proc.devRef .tc main_arg4) = U (Proc.devRef .tc main_arg4) := by
  dsimp only [ops4]; after_results_simp
theorem K4_main_arg5 (U : Valuation τ sig (Elt 𝕀)) : after ops4 U (Proc.devRef .tc main_arg5) = U (Proc.devRef .tc main_arg5) := by
  dsimp only [ops4]; after_results_simp
theorem K4_main_arg6 (U : Valuation τ sig (Elt 𝕀)) : after ops4 U (Proc.devRef .tc main_arg6) = U (Proc.devRef .tc main_arg6) := by
  dsimp only [ops4]; after_results_simp
theorem K4_main_arg7 (U : Valuation τ sig (Elt 𝕀)) : after ops4 U (Proc.devRef .tc main_arg7) = U (Proc.devRef .tc main_arg7) := by
  dsimp only [ops4]; after_results_simp
theorem K5_main_v47 (U : Valuation τ sig (Elt 𝕀)) : after ops5 U (Proc.devRef .tc main_v47) = U (Proc.devRef .tc main_v47) := by
  dsimp only [ops5]; after_results_simp
theorem K5_main_arg4 (U : Valuation τ sig (Elt 𝕀)) : after ops5 U (Proc.devRef .tc main_arg4) = U (Proc.devRef .tc main_arg4) := by
  dsimp only [ops5]; after_results_simp
theorem K5_main_arg5 (U : Valuation τ sig (Elt 𝕀)) : after ops5 U (Proc.devRef .tc main_arg5) = U (Proc.devRef .tc main_arg5) := by
  dsimp only [ops5]; after_results_simp
theorem K5_main_arg6 (U : Valuation τ sig (Elt 𝕀)) : after ops5 U (Proc.devRef .tc main_arg6) = U (Proc.devRef .tc main_arg6) := by
  dsimp only [ops5]; after_results_simp
theorem K5_main_arg7 (U : Valuation τ sig (Elt 𝕀)) : after ops5 U (Proc.devRef .tc main_arg7) = U (Proc.devRef .tc main_arg7) := by
  dsimp only [ops5]; after_results_simp
theorem K6_main_v51 (U : Valuation τ sig (Elt 𝕀)) : after ops6 U (Proc.devRef .tc main_v51) = U (Proc.devRef .tc main_v51) := by
  dsimp only [ops6]; after_results_simp
theorem K6_main_v54 (U : Valuation τ sig (Elt 𝕀)) : after ops6 U (Proc.devRef .tc main_v54) = U (Proc.devRef .tc main_v54) := by
  dsimp only [ops6]; after_results_simp
theorem K6_main_v47 (U : Valuation τ sig (Elt 𝕀)) : after ops6 U (Proc.devRef .tc main_v47) = U (Proc.devRef .tc main_v47) := by
  dsimp only [ops6]; after_results_simp
theorem K6_main_arg4 (U : Valuation τ sig (Elt 𝕀)) : after ops6 U (Proc.devRef .tc main_arg4) = U (Proc.devRef .tc main_arg4) := by
  dsimp only [ops6]; after_results_simp
theorem K6_main_arg5 (U : Valuation τ sig (Elt 𝕀)) : after ops6 U (Proc.devRef .tc main_arg5) = U (Proc.devRef .tc main_arg5) := by
  dsimp only [ops6]; after_results_simp
theorem K6_main_arg6 (U : Valuation τ sig (Elt 𝕀)) : after ops6 U (Proc.devRef .tc main_arg6) = U (Proc.devRef .tc main_arg6) := by
  dsimp only [ops6]; after_results_simp
theorem K6_main_arg7 (U : Valuation τ sig (Elt 𝕀)) : after ops6 U (Proc.devRef .tc main_arg7) = U (Proc.devRef .tc main_arg7) := by
  dsimp only [ops6]; after_results_simp
theorem K7_main_v51 (U : Valuation τ sig (Elt 𝕀)) : after ops7 U (Proc.devRef .tc main_v51) = U (Proc.devRef .tc main_v51) := by
  dsimp only [ops7]; after_results_simp
theorem K7_main_v54 (U : Valuation τ sig (Elt 𝕀)) : after ops7 U (Proc.devRef .tc main_v54) = U (Proc.devRef .tc main_v54) := by
  dsimp only [ops7]; after_results_simp
theorem K7_main_v47 (U : Valuation τ sig (Elt 𝕀)) : after ops7 U (Proc.devRef .tc main_v47) = U (Proc.devRef .tc main_v47) := by
  dsimp only [ops7]; after_results_simp
theorem K7_main_arg4 (U : Valuation τ sig (Elt 𝕀)) : after ops7 U (Proc.devRef .tc main_arg4) = U (Proc.devRef .tc main_arg4) := by
  dsimp only [ops7]; after_results_simp
theorem K7_main_arg5 (U : Valuation τ sig (Elt 𝕀)) : after ops7 U (Proc.devRef .tc main_arg5) = U (Proc.devRef .tc main_arg5) := by
  dsimp only [ops7]; after_results_simp
theorem K7_main_arg6 (U : Valuation τ sig (Elt 𝕀)) : after ops7 U (Proc.devRef .tc main_arg6) = U (Proc.devRef .tc main_arg6) := by
  dsimp only [ops7]; after_results_simp
theorem K7_main_arg7 (U : Valuation τ sig (Elt 𝕀)) : after ops7 U (Proc.devRef .tc main_arg7) = U (Proc.devRef .tc main_arg7) := by
  dsimp only [ops7]; after_results_simp
theorem K8_main_arg5 (U : Valuation τ sig (Elt 𝕀)) : after ops8 U (Proc.devRef .tc main_arg5) = U (Proc.devRef .tc main_arg5) := by
  dsimp only [ops8]; after_results_simp
theorem K8_main_arg6 (U : Valuation τ sig (Elt 𝕀)) : after ops8 U (Proc.devRef .tc main_arg6) = U (Proc.devRef .tc main_arg6) := by
  dsimp only [ops8]; after_results_simp
theorem K8_main_arg7 (U : Valuation τ sig (Elt 𝕀)) : after ops8 U (Proc.devRef .tc main_arg7) = U (Proc.devRef .tc main_arg7) := by
  dsimp only [ops8]; after_results_simp

/-! ## The whole line -/

theorem after_append (l₁ l₂ : List (HloOp τ sig (Elt 𝕀))) (V : Valuation τ sig (Elt 𝕀)) :
    after (l₁ ++ l₂) V = after l₂ (after l₁ V) := by
  induction l₁ generalizing V with
  | nil => rfl
  | cons op l ih => exact ih _

set_option maxHeartbeats 4000000 in
/-- The reference's result buffer, from any launch contents `U`: the dense layers as it spells them, over the
    aggregations of the graph read off the edge list. -/
theorem result_spelt (U : Valuation τ sig (Elt 𝕀)) : after (ops (F := 𝕀)) U (Proc.devRef .tc main_v99)
    = dense2 (Kernel.agg2 (Kernel.src (U (Proc.devRef .tc main_arg1))) (Kernel.dst (U (Proc.devRef .tc main_arg1))) (Kernel.norm (U (Proc.devRef .tc main_arg1)))
        (dense1 (Kernel.agg4 (Kernel.src (U (Proc.devRef .tc main_arg1))) (Kernel.dst (U (Proc.devRef .tc main_arg1))) (Kernel.norm (U (Proc.devRef .tc main_arg1)))
          (dense0 (U (Proc.devRef .tc main_arg0)) (U (Proc.devRef .tc main_arg2)))) (U (Proc.devRef .tc main_arg3)) (U (Proc.devRef .tc main_arg4))))
      (U (Proc.devRef .tc main_arg5)) (U (Proc.devRef .tc main_arg6)) (U (Proc.devRef .tc main_arg7)) := by
  rw [ops_eq]
  simp only [after_append]
  -- every stretch's facts, then the stretches themselves forgotten: only the facts are used from here on
  have hS9_out := S9_out
  have hS8_agg := S8_agg
  have hS7_norm := S7_norm
  have hS6_dinv := S6_dinv
  have hS5_src := S5_src
  have hS5_dst := S5_dst
  have hS5_pos := S5_pos
  have hS5_rsqrt := S5_rsqrt
  have hS5_zero := S5_zero
  have hS4_hidden := S4_hidden
  have hS3_agg := S3_agg
  have hS2_norm := S2_norm
  have hS1_dinv := S1_dinv
  have hS0_src := S0_src
  have hS0_dst := S0_dst
  have hS0_pos := S0_pos
  have hS0_rsqrt := S0_rsqrt
  have hS0_zero := S0_zero
  have hK0_main_arg0 := K0_main_arg0
  have hK0_main_arg1 := K0_main_arg1
  have hK0_main_arg2 := K0_main_arg2
  have hK0_main_arg3 := K0_main_arg3
  have hK0_main_arg4 := K0_main_arg4
  have hK0_main_arg5 := K0_main_arg5
  have hK0_main_arg6 := K0_main_arg6
  have hK0_main_arg7 := K0_main_arg7
  have hK1_main_v3 := K1_main_v3
  have hK1_main_v6 := K1_main_v6
  have hK1_main_arg0 := K1_main_arg0
  have hK1_main_arg1 := K1_main_arg1
  have hK1_main_arg2 := K1_main_arg2
  have hK1_main_arg3 := K1_main_arg3
  have hK1_main_arg4 := K1_main_arg4
  have hK1_main_arg5 := K1_main_arg5
  have hK1_main_arg6 := K1_main_arg6
  have hK1_main_arg7 := K1_main_arg7
  have hK2_main_v3 := K2_main_v3
  have hK2_main_v6 := K2_main_v6
  have hK2_main_arg0 := K2_main_arg0
  have hK2_main_arg1 := K2_main_arg1
  have hK2_main_arg2 := K2_main_arg2
  have hK2_main_arg3 := K2_main_arg3
  have hK2_main_arg4 := K2_main_arg4
  have hK2_main_arg5 := K2_main_arg5
  have hK2_main_arg6 := K2_main_arg6
  have hK2_main_arg7 := K2_main_arg7
  have hK3_main_arg1 := K3_main_arg1
  have hK3_main_arg3 := K3_main_arg3
  have hK3_main_arg4 := K3_main_arg4
  have hK3_main_arg5 := K3_main_arg5
  have hK3_main_arg6 := K3_main_arg6
  have hK3_main_arg7 := K3_main_arg7
  have hK4_main_arg1 := K4_main_arg1
  have hK4_main_arg4 := K4_main_arg4
  have hK4_main_arg5 := K4_main_arg5
  have hK4_main_arg6 := K4_main_arg6
  have hK4_main_arg7 := K4_main_arg7
  have hK5_main_v47 := K5_main_v47
  have hK5_main_arg4 := K5_main_arg4
  have hK5_main_arg5 := K5_main_arg5
  have hK5_main_arg6 := K5_main_arg6
  have hK5_main_arg7 := K5_main_arg7
  have hK6_main_v51 := K6_main_v51
  have hK6_main_v54 := K6_main_v54
  have hK6_main_v47 := K6_main_v47
  have hK6_main_arg4 := K6_main_arg4
  have hK6_main_arg5 := K6_main_arg5
  have hK6_main_arg6 := K6_main_arg6
  have hK6_main_arg7 := K6_main_arg7
  have hK7_main_v51 := K7_main_v51
  have hK7_main_v54 := K7_main_v54
  have hK7_main_v47 := K7_main_v47
  have hK7_main_arg4 := K7_main_arg4
  have hK7_main_arg5 := K7_main_arg5
  have hK7_main_arg6 := K7_main_arg6
  have hK7_main_arg7 := K7_main_arg7
  have hK8_main_arg5 := K8_main_arg5
  have hK8_main_arg6 := K8_main_arg6
  have hK8_main_arg7 := K8_main_arg7
  generalize (ops9 (F := 𝕀)) = o9 at *
  generalize (ops8 (F := 𝕀)) = o8 at *
  generalize (ops7 (F := 𝕀)) = o7 at *
  generalize (ops6 (F := 𝕀)) = o6 at *
  generalize (ops5 (F := 𝕀)) = o5 at *
  generalize (ops4 (F := 𝕀)) = o4 at *
  generalize (ops3 (F := 𝕀)) = o3 at *
  generalize (ops2 (F := 𝕀)) = o2 at *
  generalize (ops1 (F := 𝕀)) = o1 at *
  generalize (ops0 (F := 𝕀)) = o0 at *
  repeat (first
    | rw [hS9_out]
    | rw [hS8_agg]
    | rw [hS7_norm]
    | rw [hS6_dinv]
    | rw [hS5_src]
    | rw [hS5_dst]
    | rw [hS5_pos]
    | rw [hS5_rsqrt]
    | rw [hS5_zero]
    | rw [hS4_hidden]
    | rw [hS3_agg]
    | rw [hS2_norm]
    | rw [hS1_dinv]
    | rw [hS0_src]
    | rw [hS0_dst]
    | rw [hS0_pos]
    | rw [hS0_rsqrt]
    | rw [hS0_zero]
    | rw [hK0_main_arg0]
    | rw [hK0_main_arg1]
    | rw [hK0_main_arg2]
    | rw [hK0_main_arg3]
    | rw [hK0_main_arg4]
    | rw [hK0_main_arg5]
    | rw [hK0_main_arg6]
    | rw [hK0_main_arg7]
    | rw [hK1_main_v3]
    | rw [hK1_main_v6]
    | rw [hK1_main_arg0]
    | rw [hK1_main_arg1]
    | rw [hK1_main_arg2]
    | rw [hK1_main_arg3]
    | rw [hK1_main_arg4]
    | rw [hK1_main_arg5]
    | rw [hK1_main_arg6]
    | rw [hK1_main_arg7]
    | rw [hK2_main_v3]
    | rw [hK2_main_v6]
    | rw [hK2_main_arg0]
    | rw [hK2_main_arg1]
    | rw [hK2_main_arg2]
    | rw [hK2_main_arg3]
    | rw [hK2_main_arg4]
    | rw [hK2_main_arg5]
    | rw [hK2_main_arg6]
    | rw [hK2_main_arg7]
    | rw [hK3_main_arg1]
    | rw [hK3_main_arg3]
    | rw [hK3_main_arg4]
    | rw [hK3_main_arg5]
    | rw [hK3_main_arg6]
    | rw [hK3_main_arg7]
    | rw [hK4_main_arg1]
    | rw [hK4_main_arg4]
    | rw [hK4_main_arg5]
    | rw [hK4_main_arg6]
    | rw [hK4_main_arg7]
    | rw [hK5_main_v47]
    | rw [hK5_main_arg4]
    | rw [hK5_main_arg5]
    | rw [hK5_main_arg6]
    | rw [hK5_main_arg7]
    | rw [hK6_main_v51]
    | rw [hK6_main_v54]
    | rw [hK6_main_v47]
    | rw [hK6_main_arg4]
    | rw [hK6_main_arg5]
    | rw [hK6_main_arg6]
    | rw [hK6_main_arg7]
    | rw [hK7_main_v51]
    | rw [hK7_main_v54]
    | rw [hK7_main_v47]
    | rw [hK7_main_arg4]
    | rw [hK7_main_arg5]
    | rw [hK7_main_arg6]
    | rw [hK7_main_arg7]
    | rw [hK8_main_arg5]
    | rw [hK8_main_arg6]
    | rw [hK8_main_arg7])
  rfl

end Cert.Gcn.Ref

end
-- ==== Proof.RefNet.lean ====
/-
  The reference's dense layers, read entry by entry, are the kernel's.

  A whole matrix product `[n, k] · [k, o]` at entry `(r, c)` is the sum over the contracted coordinate `h` of
  `lhs (r, h) · rhs (h, c)`; a bias vector broadcast to a row and then down the rows reads, at `(r, h)`, its entry
  `h` — as does the same vector recast as a one-row matrix and read at `(0, h)`. So each dense layer of the reference
  is the layer the kernel's blocks compute row by row, and the reference's result is the same network of the arguments.
-/
import proofs.«130917_j51616916964127_2_alg».proof.Proof.RefValue

set_option maxRecDepth 16384

noncomputable section

namespace Cert.Gcn.Ref

open Cert.ReferenceIdeal Cert.ReferenceIdeal.Gen Cert.ReferenceIdeal.ValueP Cert.Gcn
open Idealize.ShloMosaic Idealize.ShloMosaic.TcCoe Idealize.ShloMosaic.ValueIdx Idealize.ShloMosaic.Pipeline Idealize.SL.Sem Idealize.ShloMosaic.StableHlo

local notation "𝕀" => Idealize.ShloMosaic.Ideal

/-- The host's product `[n, k] · [k, o]` at entry `(r, c)`: the sum over the contracted coordinate. -/
theorem hostDot_entry {n k o : ℕ} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (lhs : FVec 𝕀 ⟨2, ![n, k]⟩ .f32) (rhs : FVec 𝕀 ⟨2, ![k, o]⟩ .f32) (r : Fin n) (c : Fin o) :
    Host.dotGeneral d none lhs rhs (ix2 r c) = lin lhs rhs r c := by
  simp only [Host.dotGeneral]
  rw [Ideal.dotGeneral_apply, ← Ideal.matmul_constant_zero_apply d none lhs rhs]
  exact Cert.LibMatProduct.matmul_zero_apply d none hlc hrc hln hrn hlb hrb lhs rhs r c

/-- A vector broadcast to a row and then down `n` rows reads, at `(r, h)`, its entry `h`. -/
theorem bias_entry {n k : ℕ} (b : (⟨1, ![k]⟩ : Shape).Idx → EReal)
    (h₁ : (⟨1, ![k]⟩ : Shape).BroadcastsInDim ⟨2, ![1, k]⟩ (![1] : Fin 1 → Fin 2))
    (h₂ : (⟨2, ![1, k]⟩ : Shape).BroadcastsInDim ⟨2, ![n, k]⟩ (![0, 1] : Fin 2 → Fin 2)) (r : Fin n) (h : Fin k) :
    broadcastInDim ⟨2, ![n, k]⟩ ![0, 1] h₂ (broadcastInDim ⟨2, ![1, k]⟩ ![1] h₁ b) (ix2 r h) = b (ix1 h) := by
  refine (broadcastInDim_apply _ h₂ _ (ix2 r h) (ix2 (0 : Fin 1) h) fun ax => ?_).trans
    (broadcastInDim_apply _ h₁ b (ix2 (0 : Fin 1) h) (ix1 h) fun ax => ?_)
  · match ax with
    | ⟨0, _⟩ => show 0 = if (1 : ℕ) = 1 then 0 else r.val; rw [if_pos rfl]
    | ⟨1, _⟩ =>
      show h.val = if k = 1 then 0 else h.val
      split
      · have := h.isLt; omega
      · rfl
  · match ax with
    | ⟨0, _⟩ =>
      show h.val = if k = 1 then 0 else h.val
      split
      · have := h.isLt; omega
      · rfl

/-- The first layer: the whole product is the row-by-row product. -/
theorem dense0_eq (x0 : FVec 𝕀 S500000x2 .f32) (x2 : FVec 𝕀 S2x4 .f32) : dense0 x0 x2 = layer0 x0 x2 := by
  funext i
  obtain ⟨r, q, rfl⟩ : ∃ (r : Fin 500000) (q : Fin 4), i = ix2 r q := ⟨i 0, i 1, eq_ix2 i⟩
  exact hostDot_entry _ rfl rfl rfl rfl rfl rfl x0 x2 r q

/-- The second layer. -/
theorem dense1_eq (a : FVec 𝕀 S500000x4 .f32) (x3 : FVec 𝕀 S4 .f32) (x4 : FVec 𝕀 S4x2 .f32)
    (hc : (⟨1, ![4]⟩ : Shape).ShapeCasts ⟨2, ![1, 4]⟩) :
    dense1 a x3 x4 = layer1 a (shapeCast ⟨2, ![1, 4]⟩ x3 hc) x4 := by
  funext i
  obtain ⟨r, q, rfl⟩ : ∃ (r : Fin 500000) (q : Fin 2), i = ix2 r q := ⟨i 0, i 1, eq_ix2 i⟩
  refine (hostDot_entry _ rfl rfl rfl rfl rfl rfl (hidden4 a x3) x4 r q).trans ?_
  show (∑ h : Fin 4, hidden4 a x3 (ix2 r h) * x4 (ix2 h q))
    = ∑ h : Fin 4, Ideal.tanh (a (ix2 r h) + shapeCast ⟨2, ![1, 4]⟩ x3 hc (ix2 (0 : Fin 1) h)) * x4 (ix2 h q)
  refine Finset.sum_congr rfl fun h _ => congrArg (· * x4 (ix2 h q)) ?_
  show Ideal.tanh (a (ix2 r h) + _) = Ideal.tanh (a (ix2 r h) + _)
  rw [bias_entry, shapeCast_a_1a_apply]

/-- The classifier. -/
theorem dense2_eq (a : FVec 𝕀 S500000x2 .f32) (x5 : FVec 𝕀 S2 .f32) (x6 : FVec 𝕀 S2x2 .f32) (x7 : FVec 𝕀 S2 .f32)
    (hc : (⟨1, ![2]⟩ : Shape).ShapeCasts ⟨2, ![1, 2]⟩) :
    dense2 a x5 x6 x7 = layer2 a (shapeCast ⟨2, ![1, 2]⟩ x5 hc) x6 (shapeCast ⟨2, ![1, 2]⟩ x7 hc) := by
  funext i
  obtain ⟨r, q, rfl⟩ : ∃ (r : Fin 500000) (q : Fin 2), i = ix2 r q := ⟨i 0, i 1, eq_ix2 i⟩
  show Host.dotGeneral (F := 𝕀) dot_S500000x2_S2x2_S500000x2_1_0_0_1_n_n none
        (Host.tanh (F := 𝕀) (addf a (broadcastInDim S500000x2 ![0, 1] bcast_S1x2_S500000x2_0_1 (broadcastInDim S1x2 ![1] bcast_S2_S1x2_1 x5)))) x6 (ix2 r q)
      + broadcastInDim S500000x2 ![0, 1] bcast_S1x2_S500000x2_0_1 (broadcastInDim S1x2 ![1] bcast_S2_S1x2_1 x7) (ix2 r q)
    = (∑ h : Fin 2, Ideal.tanh (a (ix2 r h) + shapeCast ⟨2, ![1, 2]⟩ x5 hc (ix2 (0 : Fin 1) h)) * x6 (ix2 h q))
      + shapeCast ⟨2, ![1, 2]⟩ x7 hc (ix2 (0 : Fin 1) q)
  rw [bias_entry, shapeCast_a_1a_apply]
  refine congrArg (· + x7 (ix1 q)) ?_
  refine (hostDot_entry _ rfl rfl rfl rfl rfl rfl _ x6 r q).trans ?_
  show (∑ h : Fin 2, Ideal.tanh (a (ix2 r h) + broadcastInDim S500000x2 ![0, 1] bcast_S1x2_S500000x2_0_1 (broadcastInDim S1x2 ![1] bcast_S2_S1x2_1 x5) (ix2 r h)) * x6 (ix2 h q))
    = ∑ h : Fin 2, Ideal.tanh (a (ix2 r h) + shapeCast ⟨2, ![1, 2]⟩ x5 hc (ix2 (0 : Fin 1) h)) * x6 (ix2 h q)
  refine Finset.sum_congr rfl fun h _ => congrArg (· * x6 (ix2 h q)) ?_
  rw [bias_entry, shapeCast_a_1a_apply]

/-- THE REFERENCE'S RESULT, from any launch contents: the network of the arguments. -/
theorem result (U : Valuation τ sig (Elt 𝕀)) : after (ops (F := 𝕀)) U (Proc.devRef .tc main_v99)
    = Kernel.net (U (Proc.devRef .tc main_arg0)) (U (Proc.devRef .tc main_arg1)) (U (Proc.devRef .tc main_arg2))
        (U (Proc.devRef .tc main_arg3)) (U (Proc.devRef .tc main_arg4)) (U (Proc.devRef .tc main_arg5))
        (U (Proc.devRef .tc main_arg6)) (U (Proc.devRef .tc main_arg7)) := by
  rw [result_spelt, dense2_eq _ _ _ _ Cert.KernelIdeal.Facts₀.shapeCasts_S2_S1x2,
    dense1_eq _ _ _ Cert.KernelIdeal.Facts₀.shapeCasts_S4_S1x4, dense0_eq]
  rfl

end Cert.Gcn.Ref

end
-- ==== Proof.lean ====
/-
  The certificate of the graph network kernel against its reference.

  The kernel computes the edge weights of the graph once on the host, and each dense layer in a pipelined region, 2000
  rows of the node features at a time, with the two aggregations over the edges on the host between the regions; the
  reference computes the edge weights once per layer and each dense layer as one whole product. On the extended reals
  both are the same function of the arguments (`Cert.Gcn.Kernel.net`): the regions' blocks tile their result arrays and
  each row of a block is the layer applied to that row (Region0, Region1, Region2 over Layers); the host operations around
  the regions are the same operations in both programs (GraphK for the kernel's run, RefValue for the reference's); a
  whole product read at an entry is the sum the kernel's block product is (RefNet). No algebraic law beyond that is
  needed, and the precondition is never opened. The idealization rewrote nothing, so `preserves` is trivial.
-/
import proofs.«130917_j51616916964127_2_alg».proof.Defs
import proofs.«130917_j51616916964127_2_alg».proof.Proof.Gen.Kernel
import proofs.«130917_j51616916964127_2_alg».proof.Proof.Gen.Kernel.Skeleton
import proofs.«130917_j51616916964127_2_alg».proof.Proof.Gen.Kernel.Launch
import proofs.«130917_j51616916964127_2_alg».proof.Proof.Gen.Kernel.Points
import proofs.«130917_j51616916964127_2_alg».proof.Proof.Gen.Kernel.Frame
import proofs.«130917_j51616916964127_2_alg».proof.Proof.Gen.KernelIdeal
import proofs.«130917_j51616916964127_2_alg».proof.Proof.Gen.KernelIdeal.Skeleton
import proofs.«130917_j51616916964127_2_alg».proof.Proof.Gen.KernelIdeal.Launch
import proofs.«130917_j51616916964127_2_alg».proof.Proof.Gen.KernelIdeal.Points
import proofs.«130917_j51616916964127_2_alg».proof.Proof.Gen.KernelIdeal.Frame
import proofs.«130917_j51616916964127_2_alg».proof.Proof.Gen.ReferenceIdeal
import proofs.«130917_j51616916964127_2_alg».proof.Proof.Gen.Pre_finite_inputs
import proofs.«130917_j51616916964127_2_alg».proof.Proof.RunK
import proofs.«130917_j51616916964127_2_alg».proof.Proof.GraphK
import proofs.«130917_j51616916964127_2_alg».proof.Proof.RefRun
import proofs.«130917_j51616916964127_2_alg».proof.Proof.RefNet
import Idealize.ShloMosaic.Adequacy
import Idealize.ShloMosaic.Init

noncomputable section

namespace Cert.Proof

open Idealize.ShloMosaic Idealize.ShloMosaic.TcCoe Idealize.SL.Sem

local notation "𝕀" => Idealize.ShloMosaic.Ideal

/-- The word-level kernel runs and leaves its arguments as launched. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference runs and leaves its arguments as launched: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := 𝕀) m ρ)

/-- The idealization rewrote no operation. -/
theorem preserves : Cert.preserves_Kernel_KernelIdeal := trivial

/-- Both idealized programs end with the network of the arguments in their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gcn.Kernel.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Gcn.Kernel.result m ρ c), (h c).2⟩)
      (Cert.KernelIdeal.Whole.run m ρ)
  · refine (θ_run Cert.ReferenceIdeal.defs _ _).mono (fun r h c => ⟨(h c).1.trans ?_, (h c).2⟩)
      (Cert.ReferenceIdeal.ValueP.run (F := 𝕀) m' ρ')
    obtain ⟨e0, e1, e2, e3, e4, e5, e6, e7⟩ := hagree c
    -- the reference's launch contents of each argument are the kernel's, by the agreement of the two memories
    have h0 : StableHlo.launchContents m' c (Proc.devRef .tc Cert.ReferenceIdeal.main_arg0) = (m ((c.tc : Thread Cert.KernelIdeal.nD Cert.KernelIdeal.τ).loc Cert.KernelIdeal.main_arg0)) := e0
    have h1 : StableHlo.launchContents m' c (Proc.devRef .tc Cert.ReferenceIdeal.main_arg1) = (m ((c.tc : Thread Cert.KernelIdeal.nD Cert.KernelIdeal.τ).loc Cert.KernelIdeal.main_arg1)) := e1
    have h2 : StableHlo.launchContents m' c (Proc.devRef .tc Cert.ReferenceIdeal.main_arg2) = (m ((c.tc : Thread Cert.KernelIdeal.nD Cert.KernelIdeal.τ).loc Cert.KernelIdeal.main_arg2)) := e2
    have h3 : StableHlo.launchContents m' c (Proc.devRef .tc Cert.ReferenceIdeal.main_arg3) = (m ((c.tc : Thread Cert.KernelIdeal.nD Cert.KernelIdeal.τ).loc Cert.KernelIdeal.main_arg3)) := e3
    have h4 : StableHlo.launchContents m' c (Proc.devRef .tc Cert.ReferenceIdeal.main_arg4) = (m ((c.tc : Thread Cert.KernelIdeal.nD Cert.KernelIdeal.τ).loc Cert.KernelIdeal.main_arg4)) := e4
    have h5 : StableHlo.launchContents m' c (Proc.devRef .tc Cert.ReferenceIdeal.main_arg5) = (m ((c.tc : Thread Cert.KernelIdeal.nD Cert.KernelIdeal.τ).loc Cert.KernelIdeal.main_arg5)) := e5
    have h6 : StableHlo.launchContents m' c (Proc.devRef .tc Cert.ReferenceIdeal.main_arg6) = (m ((c.tc : Thread Cert.KernelIdeal.nD Cert.KernelIdeal.τ).loc Cert.KernelIdeal.main_arg6)) := e6
    have h7 : StableHlo.launchContents m' c (Proc.devRef .tc Cert.ReferenceIdeal.main_arg7) = (m ((c.tc : Thread Cert.KernelIdeal.nD Cert.KernelIdeal.τ).loc Cert.KernelIdeal.main_arg7)) := e7
    rw [Cert.Gcn.Ref.result, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
